-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x4096x64 : Shape := ⟨4, ![4, 16, 4096, 64]⟩
abbrev S_ : Shape := ⟨0, ![]⟩

class Facts : Prop where
  bcast_S_S4x16x4096x64 : S_.BroadcastsInDim S4x16x4096x64 (![] : Fin 0 → Fin S4x16x4096x64.rank)
  reducesTo_S4x16x4096x64_S_d0_1_2_3 : S4x16x4096x64.ReducesTo [0, 1, 2, 3] S_
  h_S_ : 0 < S_.numel

variable [Facts]

def fn {F : FTy → Type} [FloatOps F] (main_arg0 : FVec F S4x16x4096x64 .f32) (main_arg1 : FVec F S4x16x4096x64 .f32) (main_arg2 : FVec F S4x16x4096x64 .f32) : IVec S_ 1 :=
  let main_v0 : FVec F S4x16x4096x64 .f32 := Host.absf main_arg0
  let main_cst : FVec F S_ .f32 := constant S_ .f32 0x7F800000#32
  let main_v1 : FVec F S4x16x4096x64 .f32 := broadcastInDim S4x16x4096x64 ![] bcast_S_S4x16x4096x64 main_cst
  let main_v2 : IVec S4x16x4096x64 1 := cmpf .olt main_v0 main_v1
  let main_c : IVec S_ 1 := constantI S_ 1 1#1
  let main_v3 : IVec S_ 1 := (fun x v => Host.reduce IntOp.andi x v reducesTo_S4x16x4096x64_S_d0_1_2_3 h_S_) main_v2 main_c
  let main_v4 : FVec F S4x16x4096x64 .f32 := Host.absf main_arg1
  let main_cst_0 : FVec F S_ .f32 := constant S_ .f32 0x7F800000#32
  let main_v5 : FVec F S4x16x4096x64 .f32 := broadcastInDim S4x16x4096x64 ![] bcast_S_S4x16x4096x64 main_cst_0
  let main_v6 : IVec S4x16x4096x64 1 := cmpf .olt main_v4 main_v5
  let main_c_1 : IVec S_ 1 := constantI S_ 1 1#1
  let main_v7 : IVec S_ 1 := (fun x v => Host.reduce IntOp.andi x v reducesTo_S4x16x4096x64_S_d0_1_2_3 h_S_) main_v6 main_c_1
  let main_v8 : IVec S_ 1 := andi main_v3 main_v7
  let main_v9 : FVec F S4x16x4096x64 .f32 := Host.absf main_arg2
  let main_cst_2 : FVec F S_ .f32 := constant S_ .f32 0x7F800000#32
  let main_v10 : FVec F S4x16x4096x64 .f32 := broadcastInDim S4x16x4096x64 ![] bcast_S_S4x16x4096x64 main_cst_2
  let main_v11 : IVec S4x16x4096x64 1 := cmpf .olt main_v9 main_v10
  let main_c_3 : IVec S_ 1 := constantI S_ 1 1#1
  let main_v12 : IVec S_ 1 := (fun x v => Host.reduce IntOp.andi x v reducesTo_S4x16x4096x64_S_d0_1_2_3 h_S_) main_v11 main_c_3
  let main_v13 : IVec S_ 1 := andi main_v8 main_v12
  main_v13
-- ==== Kernel.lean ====
abbrev S4x16x4096x64 : Shape := ⟨4, ![4, 16, 4096, 64]⟩
abbrev S1x1x4096x64 : Shape := ⟨4, ![1, 1, 4096, 64]⟩
abbrev S4096x64 : Shape := ⟨2, ![4096, 64]⟩
abbrev S64x64x64 : Shape := ⟨3, ![64, 64, 64]⟩
abbrev S64x64 : Shape := ⟨2, ![64, 64]⟩
abbrev S64x64x1 : Shape := ⟨3, ![64, 64, 1]⟩
abbrev S64 : Shape := ⟨1, ![64]⟩
abbrev S64x1 : Shape := ⟨2, ![64, 1]⟩
abbrev S1x64x64 : Shape := ⟨3, ![1, 64, 64]⟩

abbrev nBuf : Space → Nat
  | .hbm => 4
  | .vmem => 8
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x4096x64, .f32⟩
  | .local _ .vmem, ⟨0, _⟩ => ⟨S1x1x4096x64, .f32⟩
  | .local _ .vmem, ⟨1, _⟩ => ⟨S1x1x4096x64, .f32⟩
  | .local _ .vmem, ⟨2, _⟩ => ⟨S1x1x4096x64, .f32⟩
  | .local _ .vmem, ⟨3, _⟩ => ⟨S1x1x4096x64, .f32⟩
  | .local _ .vmem, ⟨4, _⟩ => ⟨S1x1x4096x64, .f32⟩
  | .local _ .vmem, ⟨5, _⟩ => ⟨S1x1x4096x64, .f32⟩
  | .local _ .vmem, ⟨6, _⟩ => ⟨S1x1x4096x64, .f32⟩
  | .local _ .vmem, ⟨7, _⟩ => ⟨S1x1x4096x64, .f32⟩
  | _, _ => ⟨S4x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  shapeCasts_S4096x64_S64x64x64 : S4096x64.ShapeCasts S64x64x64
  bitsLt_bf16_f32 : FTy.bits .bf16 < FTy.bits .f32
  reduces_S64x64x64_S64x64 : S64x64x64.Reduces [2] S64x64
  shapeCasts_S64x64_S64x64x1 : S64x64.ShapeCasts S64x64x1
  broadcasts_S64x64x1_S64x64x64 : S64x64x1.Broadcasts S64x64x64
  transposes_S64x64x64_p1_0_2_S64x64x64 : S64x64x64.Transposes [1, 0, 2] S64x64x64
  reduces_S64x64x64_S64x64_2 : S64x64x64.Reduces [0] S64x64
  reduces_S64x64_S64 : S64x64.Reduces [1] S64
  shapeCasts_S64_S64x1 : S64.ShapeCasts S64x1
  broadcasts_S64x1_S64x64 : S64x1.Broadcasts S64x64
  shapeCasts_S64x64_S1x64x64 : S64x64.ShapeCasts S1x64x64
  shapeCasts_S1x64x64_S1x64x64 : S1x64x64.ShapeCasts S1x64x64
  broadcasts_S1x64x64_S64x64x64 : S1x64x64.Broadcasts S64x64x64
  shapeCasts_S64x64x64_S4096x64 : S64x64x64.ShapeCasts S4096x64
  shapeCasts_S4096x64_S1x1x4096x64 : S4096x64.ShapeCasts S1x1x4096x64
  dot_S64x64x64_S64x64x64_S64x64x64_2_2_1_1_0_0_wf : DotDims.WF S64x64x64 S64x64x64 S64x64x64 [2] [2] [1] [1] [0] [0]
  dot_S64x64x64_S64x64x64_S64x64x64_2_1_1_2_0_0_wf : DotDims.WF S64x64x64 S64x64x64 S64x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x64.size a ≤ S4x16x4096x64.size a
  hwx0_0 : ∀ i : grid0.Coords, EltTy.bits .f32 = 32 ∨ (Rect.block (s := S4x16x4096x64) S1x1x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x64.size a ≤ S4x16x4096x64.size a
  hwx0_1 : ∀ i : grid0.Coords, EltTy.bits .f32 = 32 ∨ (Rect.block (s := S4x16x4096x64) S1x1x4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x64.size a ≤ S4x16x4096x64.size a
  hwx0_2 : ∀ i : grid0.Coords, EltTy.bits .f32 = 32 ∨ (Rect.block (s := S4x16x4096x64) S1x1x4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x64.size a ≤ S4x16x4096x64.size a
  hwx0_3 : ∀ i : grid0.Coords, EltTy.bits .f32 = 32 ∨ (Rect.block (s := S4x16x4096x64) S1x1x4096x64.size (cc0_transform_3 i) (hinb0_3 i)).WholeWords (EltTy.packing .f32)

variable [Facts₀]

def dot_S64x64x64_S64x64x64_S64x64x64_2_2_1_1_0_0 : DotDims S64x64x64 S64x64x64 S64x64x64 where
  lhsContracting := [2]
  rhsContracting := [2]
  lhsNonContracting := [1]
  rhsNonContracting := [1]
  lhsBatch := [0]
  rhsBatch := [0]
  wf := dot_S64x64x64_S64x64x64_S64x64x64_2_2_1_1_0_0_wf
def dot_S64x64x64_S64x64x64_S64x64x64_2_1_1_2_0_0 : DotDims S64x64x64 S64x64x64 S64x64x64 where
  lhsContracting := [2]
  rhsContracting := [1]
  lhsNonContracting := [1]
  rhsNonContracting := [2]
  lhsBatch := [0]
  rhsBatch := [0]
  wf := dot_S64x64x64_S64x64x64_S64x64x64_2_1_1_2_0_0_wf

abbrev win0_0 : Pipeline.Window sig grid0 :=
  Pipeline.Window.ofSpec (Memref.whole main_arg0) S1x1x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x4096x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x4096x64 : Shape := ⟨4, ![4, 16, 4096, 64]⟩
abbrev S4x16x64x64x64 : Shape := ⟨5, ![4, 16, 64, 64, 64]⟩
abbrev S_ : Shape := ⟨0, ![]⟩
abbrev S4x16x64x64 : Shape := ⟨4, ![4, 16, 64, 64]⟩
abbrev S4x16x64x64x1 : Shape := ⟨5, ![4, 16, 64, 64, 1]⟩
abbrev S4x16x64x4096 : Shape := ⟨4, ![4, 16, 64, 4096]⟩
abbrev S4x16x64 : Shape := ⟨3, ![4, 16, 64]⟩
abbrev S4x16x64x1 : Shape := ⟨4, ![4, 16, 64, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x16x4096x64, .f32⟩
  | .hbm, ⟨1, _⟩ => ⟨S4x16x4096x64, .f32⟩
  | .hbm, ⟨2, _⟩ => ⟨S4x16x4096x64, .f32⟩
  | .hbm, ⟨3, _⟩ => ⟨S4x16x64x64x64, .f32⟩
  | .hbm, ⟨4, _⟩ => ⟨S4x16x64x64x64, .f32⟩
  | .hbm, ⟨5, _⟩ => ⟨S4x16x64x64x64, .f32⟩
  | .hbm, ⟨6, _⟩ => ⟨S_, .f32⟩
  | .hbm, ⟨7, _⟩ => ⟨S4x16x64x64x64, .f32⟩
  | .hbm, ⟨8, _⟩ => ⟨S4x16x64x64x64, .f32⟩
  | .hbm, ⟨9, _⟩ => ⟨S4x16x64x64x64, .f32⟩
  | .hbm, ⟨10, _⟩ => ⟨S_, .f32⟩
  | .hbm, ⟨11, _⟩ => ⟨S4x16x64x64, .f32⟩
  | .hbm, ⟨12, _⟩ => ⟨S_, .f32⟩
  | .hbm, ⟨13, _⟩ => ⟨S4x16x64x64, .f32⟩
  | .hbm, ⟨14, _⟩ => ⟨S4x16x64x64, .f32⟩
  | .hbm, ⟨15, _⟩ => ⟨S4x16x64x64x1, .f32⟩
  | .hbm, ⟨16, _⟩ => ⟨S4x16x64x64x64, .f32⟩
  | .hbm, ⟨17, _⟩ => ⟨S4x16x64x64x64, .f32⟩
  | .hbm, ⟨18, _⟩ => ⟨S4x16x64x64x64, .f32⟩
  | .hbm, ⟨19, _⟩ => ⟨S_, .f32⟩
  | .hbm, ⟨20, _⟩ => ⟨S4x16x64x64, .f32⟩
  | .hbm, ⟨21, _⟩ => ⟨S4x16x64x64x1, .f32⟩
  | .hbm, ⟨22, _⟩ => ⟨S4x16x64x64x64, .f32⟩
  | .hbm, ⟨23, _⟩ => ⟨S4x16x64x64x64, .f32⟩
  | .hbm, ⟨24, _⟩ => ⟨S4x16x64x64x64, .f32⟩
  | .hbm, ⟨25, _⟩ => ⟨S4x16x64x4096, .f32⟩
  | .hbm, ⟨26, _⟩ => ⟨S4x16x64x4096, .f32⟩
  | .hbm, ⟨27, _⟩ => ⟨S_, .f32⟩
  | .hbm, ⟨28, _⟩ => ⟨S4x16x64x4096, .f32⟩
  | .hbm, ⟨29, _⟩ => ⟨S4x16x64x4096, .f32⟩
  | .hbm, ⟨30, _⟩ => ⟨S4x16x64x4096, .f32⟩
  | .hbm, ⟨31, _⟩ => ⟨S4x16x64x64, .f32⟩
  | .hbm, ⟨32, _⟩ => ⟨S_, .f32⟩
  | .hbm, ⟨33, _⟩ => ⟨S4x16x64, .f32⟩
  | .hbm, ⟨34, _⟩ => ⟨S_, .f32⟩
  | .hbm, ⟨35, _⟩ => ⟨S4x16x64, .f32⟩
  | .hbm, ⟨36, _⟩ => ⟨S4x16x64, .f32⟩
  | .hbm, ⟨37, _⟩ => ⟨S4x16x64x1, .f32⟩
  | .hbm, ⟨38, _⟩ => ⟨S4x16x64x64, .f32⟩
  | .hbm, ⟨39, _⟩ => ⟨S4x16x64x64, .f32⟩
  | .hbm, ⟨40, _⟩ => ⟨S4x16x64x64, .f32⟩
  | .hbm, ⟨41, _⟩ => ⟨S_, .f32⟩
  | .hbm, ⟨42, _⟩ => ⟨S4x16x64, .f32⟩
  | .hbm, ⟨43, _⟩ => ⟨S4x16x64x1, .f32⟩
  | .hbm, ⟨44, _⟩ => ⟨S4x16x64x64, .f32⟩
  | .hbm, ⟨45, _⟩ => ⟨S4x16x64x64, .f32⟩
  | .hbm, ⟨46, _⟩ => ⟨S4x16x64x4096, .f32⟩
  | .hbm, ⟨47, _⟩ => ⟨S4x16x4096x64, .f32⟩
  | _, _ => ⟨S4x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  shapeCasts_S4x16x4096x64_S4x16x64x64x64 : S4x16x4096x64.ShapeCasts S4x16x64x64x64
  bcast_S_S4x16x64x64x64 : S_.BroadcastsInDim S4x16x64x64x64 (![] : Fin 0 → Fin S4x16x64x64x64.rank)
  reducesTo_S4x16x64x64x64_S4x16x64x64_d4 : S4x16x64x64x64.ReducesTo [4] S4x16x64x64
  h_S_ : 0 < S_.numel
  bcast_S_S4x16x64x64 : S_.BroadcastsInDim S4x16x64x64 (![] : Fin 0 → Fin S4x16x64x64.rank)
  bcast_S4x16x64x64_S4x16x64x64x1_0_1_2_3 : S4x16x64x64.BroadcastsInDim S4x16x64x64x1 (![0, 1, 2, 3] : Fin 4 → Fin S4x16x64x64x1.rank)
  bcast_S4x16x64x64x1_S4x16x64x64x64_0_1_2_3_4 : S4x16x64x64x1.BroadcastsInDim S4x16x64x64x64 (![0, 1, 2, 3, 4] : Fin 5 → Fin S4x16x64x64x64.rank)
  shapeCasts_S4x16x64x64x64_S4x16x64x4096 : S4x16x64x64x64.ShapeCasts S4x16x64x4096
  shapeCasts_S4x16x4096x64_S4x16x64x4096 : S4x16x4096x64.ShapeCasts S4x16x64x4096
  bcast_S_S4x16x64x4096 : S_.BroadcastsInDim S4x16x64x4096 (![] : Fin 0 → Fin S4x16x64x4096.rank)
  reducesTo_S4x16x64x64_S4x16x64_d3 : S4x16x64x64.ReducesTo [3] S4x16x64
  bcast_S_S4x16x64 : S_.BroadcastsInDim S4x16x64 (![] : Fin 0 → Fin S4x16x64.rank)
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  shapeCasts_S4x16x64x4096_S4x16x4096x64 : S4x16x64x4096.ShapeCasts S4x16x4096x64
  dot_S4x16x64x64x64_S4x16x64x64x64_S4x16x64x64x64_4_4_3_3_012_012_wf : DotDims.WF S4x16x64x64x64 S4x16x64x64x64 S4x16x64x64x64 [4] [4] [3] [3] [0, 1, 2] [0, 1, 2]
  dot_S4x16x64x64x64_S4x16x64x64x64_S4x16x64x64x64_4_3_3_4_012_012_wf : DotDims.WF S4x16x64x64x64 S4x16x64x64x64 S4x16x64x64x64 [4] [3] [3] [4] [0, 1, 2] [0, 1, 2]
  dot_S4x16x64x4096_S4x16x64x4096_S4x16x64x64_3_3_2_2_01_01_wf : DotDims.WF S4x16x64x4096 S4x16x64x4096 S4x16x64x64 [3] [3] [2] [2] [0, 1] [0, 1]
  dot_S4x16x64x64_S4x16x64x4096_S4x16x64x4096_3_2_2_3_01_01_wf : DotDims.WF S4x16x64x64 S4x16x64x4096 S4x16x64x4096 [3] [2] [2] [3] [0, 1] [0, 1]

variable [Facts₀]

def dot_S4x16x64x64x64_S4x16x64x64x64_S4x16x64x64x64_4_4_3_3_012_012 : DotDims S4x16x64x64x64 S4x16x64x64x64 S4x16x64x64x64 where
  lhsContracting := [4]
  rhsContracting := [4]
  lhsNonContracting := [3]
  rhsNonContracting := [3]
  lhsBatch := [0, 1, 2]
  rhsBatch := [0, 1, 2]
  wf := dot_S4x16x64x64x64_S4x16x64x64x64_S4x16x64x64x64_4_4_3_3_012_012_wf
def dot_S4x16x64x64x64_S4x16x64x64x64_S4x16x64x64x64_4_3_3_4_012_012 : DotDims S4x16x64x64x64 S4x16x64x64x64 S4x16x64x64x64 where
  lhsContracting := [4]
  rhsContracting := [3]
  lhsNonContracting := [3]
  rhsNonContracting := [4]
  lhsBatch := [0, 1, 2]
  rhsBatch := [0, 1, 2]
  wf := dot_S4x16x64x64x64_S4x16x64x64x64_S4x16x64x64x64_4_3_3_4_012_012_wf
def dot_S4x16x64x4096_S4x16x64x4096_S4x16x64x64_3_3_2_2_01_01 : DotDims S4x16x64x4096 S4x16x64x4096 S4x16x64x64 where
  lhsContracting := [3]
  rhsContracting := [3]
  lhsNonContracting := [2]
  rhsNonContracting := [2]
  lhsBatch := [0, 1]
  rhsBatch := [0, 1]
  wf := dot_S4x16x64x4096_S4x16x64x4096_S4x16x64x64_3_3_2_2_01_01_wf
def dot_S4x16x64x64_S4x16x64x4096_S4x16x64x4096_3_2_2_3_01_01 : DotDims S4x16x64x64 S4x16x64x4096 S4x16x64x4096 where
  lhsContracting := [3]
  rhsContracting := [2]
  lhsNonContracting := [2]
  rhsNonContracting := [3]
  lhsBatch := [0, 1]
  rhsBatch := [0, 1]
  wf := dot_S4x16x64x64_S4x16x64x4096_S4x16x64x4096_3_2_2_3_01_01_wf

class Facts : Prop extends Facts₀ where

variable [Facts]
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.AttnSpec.lean ====
/-
  Two-level attention of one head, as one function of the head's queries, keys and values.

  A head has 4096 rows of 64 features, cut into 64 blocks of 64 consecutive rows: row `g * 64 + s` is
  position `s` of block `g`. Attention is taken twice.

  * Inside a block: position `s` of block `g` scores position `t` of the same block by the inner product of
    the query row (scaled by 1/8) with the key row; the scores of `s` are turned into weights by a softmax over
    `t`, and the weights average the block's value rows (`localOut`).
  * Between blocks: block `g` scores block `f` by the inner product of the two blocks' queries and keys taken
    as vectors of 64 * 64 numbers (the query scaled by 1/64); the scores of `g` are turned into weights by a
    softmax over `f`, and the weights average the blocks' local results, position by position and feature by
    feature (`attnOut`).

  The softmax of a row is `exp (x t - m) / Σ exp (x u - m)` with `m` the larger of `-∞` and the row's
  supremum, on the extended reals; nothing here asks the row to be finite. The two scales and `-∞` are kept as
  the f32 patterns both programs write, never evaluated.

  A sum over the 4096 numbers of a block taken as one vector is the sum over its positions of the sums over
  the features (`sum_rows_features`): addition of extended reals is commutative and associative.
-/
import Idealize.ShloMosaic.PureOps.Ideal
import Idealize.ShloMosaic.PureOps.Ideal.Laws
import Idealize.ShloMosaic.Lib.ValueIdx
import proofs.«140023_j34325378629691_2_alg».proof.Proof.LibBlockSum

noncomputable section

namespace Cert.TwoLevelAttn

open Idealize.ShloMosaic Idealize.ShloMosaic.ValueIdx

/-- One head: block, position in the block, feature. -/
abbrev Head := Fin 64 → Fin 64 → Fin 64 → EReal

/-- Position `s` of block `g` among the head's 4096 rows. -/
abbrev rowOf (g s : Fin 64) : Fin 4096 := ⟨g.val * 64 + s.val, by omega⟩

/-- Feature `d` of position `s` among the 4096 numbers of a block taken as one vector. -/
abbrev flatOf (s d : Fin 64) : Fin 4096 := ⟨s.val * 64 + d.val, by omega⟩

/-- The block of a row and its position there. -/
abbrev blockIx (n : Fin 4096) : Fin 64 := ⟨n.val / 64, by omega⟩
abbrev posIx (n : Fin 4096) : Fin 64 := ⟨n.val % 64, by omega⟩

theorem rowOf_blockIx_posIx (n : Fin 4096) : rowOf (blockIx n) (posIx n) = n := Fin.ext (by
  show n.val / 64 * 64 + n.val % 64 = n.val; omega)

/-- Head `(b, h)` of a [4, 16, 4096, 64] array, cut into its blocks. -/
def headOf (X : (⟨4, ![4, 16, 4096, 64]⟩ : Shape).Idx → EReal) (b : Fin 4) (h : Fin 16) : Head :=
  fun g s d => X (ix4 b h (rowOf g s) d)

/-- The one head held by a [1, 1, 4096, 64] block, cut into its blocks of rows. -/
def headOfBlock (x : (⟨4, ![1, 1, 4096, 64]⟩ : Shape).Idx → EReal) : Head :=
  fun g s d => x (ix4 0 0 (rowOf g s) d)

/-- The larger of `-∞` (as the f32 pattern) and the row's supremum: what is subtracted before the exponential. -/
def rowPeak {n : Nat} (x : Fin n → EReal) : EReal :=
  max (Ideal.ofBits .f32 0xFF800000#32) (⨆ k, x k)

/-- The softmax weight of entry `t` of a row. -/
def softmaxRow {n : Nat} (x : Fin n → EReal) (t : Fin n) : EReal :=
  Ideal.div (Ideal.exp (x t - rowPeak x)) (∑ u, Ideal.exp (x u - rowPeak x))

/-- Score of position `t` for position `s`, inside block `g`: the query row scaled by 1/8 against the key row. -/
def localLogits (q k : Head) (g s t : Fin 64) : EReal :=
  ∑ d, (q g s d * Ideal.ofBits .f32 0x3E000000#32) * k g t d

/-- Attention inside the blocks: the softmax weights of position `s` average the value rows of its block. -/
def localOut (q k v : Head) (g s d : Fin 64) : EReal :=
  ∑ t, softmaxRow (localLogits q k g s) t * v g t d

/-- Score of block `f` for block `g`: the blocks' queries (scaled by 1/64) against keys, over positions and features. -/
def coarseLogits (q k : Head) (g f : Fin 64) : EReal :=
  ∑ s, ∑ d, (q g s d * Ideal.ofBits .f32 0x3C800000#32) * k f s d

/-- Attention between the blocks: the softmax weights of block `g` average the blocks' local results. -/
def attnOut (q k v : Head) (g s d : Fin 64) : EReal :=
  ∑ f, softmaxRow (coarseLogits q k g) f * localOut q k v f s d

/-- The whole [4, 16, 4096, 64] result: every head by itself, row `n` being position `n % 64` of block `n / 64`. -/
def attnArray (Q K V : (⟨4, ![4, 16, 4096, 64]⟩ : Shape).Idx → EReal) : (⟨4, ![4, 16, 4096, 64]⟩ : Shape).Idx → EReal :=
  fun i => attnOut (headOf Q (i 0) (i 1)) (headOf K (i 0) (i 1)) (headOf V (i 0) (i 1)) (blockIx (i 2)) (posIx (i 2)) (i 3)

/-- A sum over the 4096 numbers of a block is the sum over positions of the sums over features. -/
theorem sum_rows_features (f : Fin 4096 → EReal) : ∑ e, f e = ∑ s : Fin 64, ∑ d : Fin 64, f (flatOf s d) :=
  BlockSum.sum_fin_blocks 64 64 f

end Cert.TwoLevelAttn

end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.RefBlockAttn.lean ====
/-
  Attention inside the blocks, as the reference program computes it.

  The reference first reads each [4, 16, 4096, 64] argument as [4, 16, 64, 64, 64]: entry (b, h, g, s, d) of the
  reshaped array is entry (b, h, g * 64 + s, d) of the argument, that is feature d of position s of block g of
  head (b, h). On these arrays it forms, for every block, the scores of position s against position t (the inner
  product over the features of the query row scaled by 1/8 with the key row), takes the larger of -∞ and the
  supremum of a row of scores, subtracts it, exponentiates, sums the exponentials of the row starting from 0, divides,
  and averages the value rows of the block with the resulting weights. Stage by stage, at explicit coordinates, each
  of these arrays is the corresponding function of the head: the scores are localLogits, the subtracted number is
  rowPeak of the row, the weights are softmaxRow of the row, and the result is localOut.

  A maximum taken over the last axis from -∞ is the supremum over the last coordinate; the index obtained by putting
  a coordinate k back on the last axis of (j0, j1, j2, j3) is (j0, j1, j2, j3, k).
-/
import proofs.«140023_j34325378629691_2_alg».proof.Proof.Gen.ReferenceIdeal.Read
import proofs.«140023_j34325378629691_2_alg».proof.Proof.AttnSpec
import proofs.«140023_j34325378629691_2_alg».proof.Proof.LibReduceExtremum

noncomputable section

namespace Cert.TwoLevelAttn.Ref

open Idealize.ShloMosaic Idealize.ShloMosaic.ValueIdx Cert.ReferenceIdeal Cert.ReferenceIdeal.Gen
  Cert.ReferenceIdeal.Read Cert.TwoLevelAttn

/-- Rank 5, last axis dropped: the index over j with coordinate k on the last axis is (j 0, j 1, j 2, j 3, k). -/
theorem lift_last5 {n0 n1 n2 n3 n4 : Nat}
    (h : (⟨5, ![n0, n1, n2, n3, n4]⟩ : Shape).Reduces [4] (⟨4, ![n0, n1, n2, n3]⟩ : Shape))
    (j : (⟨4, ![n0, n1, n2, n3]⟩ : Shape).Idx) (k : Fin n4) : h.lift j k = ix5 (j 0) (j 1) (j 2) (j 3) k := by
  funext c; apply Fin.ext
  match c with | ⟨0, _⟩ => rfl | ⟨1, _⟩ => rfl | ⟨2, _⟩ => rfl | ⟨3, _⟩ => rfl | ⟨4, _⟩ => rfl

/-- Two rank-5 indices with the same five coordinates, coordinate by coordinate. -/
local macro "coords5" : tactic =>
  `(tactic| exact funext fun a => Fin.ext (by
      match a with | ⟨0, _⟩ => rfl | ⟨1, _⟩ => rfl | ⟨2, _⟩ => rfl | ⟨3, _⟩ => rfl | ⟨4, _⟩ => rfl))

/-- Two rank-4 indices with the same four coordinates, coordinate by coordinate. -/
local macro "coords4" : tactic =>
  `(tactic| exact funext fun a => Fin.ext (by
      match a with | ⟨0, _⟩ => rfl | ⟨1, _⟩ => rfl | ⟨2, _⟩ => rfl | ⟨3, _⟩ => rfl))

variable (x0 x1 x2 : (⟨S4x16x4096x64, .f32⟩ : BufTy).Contents (Elt Ideal))
variable (b : Fin 4) (h : Fin 16) (g s t d : Fin 64)

/-! ## The arguments cut into blocks -/

/-- Entry (b, h, g, s, d) of the array cut into blocks sits at row g * 64 + s of head (b, h): the row-major position
    ((((b * 16 + h) * 64 + g) * 64 + s) * 64 + d) read back in the shape [4, 16, 4096, 64]. -/
theorem blockEntry_index : idx_main_v0 (ix5 b h g s d) = ix4 b h (rowOf g s) d := by
  funext a; apply Fin.ext
  have hb := b.isLt; have hh := h.isLt; have hg := g.isLt; have hs := s.isLt; have hd := d.isLt
  match a with
  | ⟨0, _⟩ => show ((((b.val * 16 + h.val) * 64 + g.val) * 64 + s.val) * 64 + d.val) / 4194304 = b.val; omega
  | ⟨1, _⟩ => show ((((b.val * 16 + h.val) * 64 + g.val) * 64 + s.val) * 64 + d.val) / 262144 % 16 = h.val; omega
  | ⟨2, _⟩ =>
    show ((((b.val * 16 + h.val) * 64 + g.val) * 64 + s.val) * 64 + d.val) / 64 % 4096 = g.val * 64 + s.val; omega
  | ⟨3, _⟩ => show ((((b.val * 16 + h.val) * 64 + g.val) * 64 + s.val) * 64 + d.val) % 64 = d.val; omega

theorem queries_at : val_main_v0 (F := Ideal) x0 (ix5 b h g s d) = headOf x0 b h g s d := by
  rw [val_main_v0_apply]
  exact congrArg x0 (blockEntry_index b h g s d)

theorem keys_at : val_main_v1 (F := Ideal) x1 (ix5 b h g s d) = headOf x1 b h g s d := by
  rw [val_main_v1_apply]
  exact congrArg x1 (blockEntry_index b h g s d)

theorem values_at : val_main_v2 (F := Ideal) x2 (ix5 b h g s d) = headOf x2 b h g s d := by
  rw [val_main_v2_apply]
  exact congrArg x2 (blockEntry_index b h g s d)

/-- The queries scaled by 1/8. -/
theorem scaledQueries_at :
    val_main_v4 (F := Ideal) x0 (ix5 b h g s d) = headOf x0 b h g s d * Ideal.ofBits .f32 0x3E000000#32 := by
  rw [val_main_v4_apply, val_main_v3_apply, val_main_cst_apply, queries_at]
  rfl

/-! ## Scores inside a block -/

/-- The score of position t for position s of block g: the sum over the features. -/
theorem localLogits_at :
    val_main_v5 (F := Ideal) x0 x1 (ix5 b h g s t) = localLogits (headOf x0 b h) (headOf x1 b h) g s t := by
  rw [val_main_v5_apply]
  unfold localLogits
  refine Finset.sum_congr rfl fun k _ => ?_
  rw [show lidx_main_v5 (ix5 b h g s t) k = ix5 b h g s k by coords5,
    show ridx_main_v5 (ix5 b h g s t) k = ix5 b h g t k by coords5, scaledQueries_at, keys_at]

/-- The maximum of a row of scores taken from -∞ is the supremum of the row. -/
theorem localRowSup_at :
    val_main_v6 (F := Ideal) x0 x1 (ix4 b h g s)
      = ⨆ k : Fin 64, val_main_v5 (F := Ideal) x0 x1 (ix5 b h g s k) := by
  unfold val_main_v6 val_main_cst_0
  generalize val_main_v5 (F := Ideal) x0 x1 = y
  have red : S4x16x64x64x64.Reduces [4] S4x16x64x64 := by decide
  rw [ReduceExtremum.hostReduce_max_single_negInf y _ red]
  exact iSup_congr fun k => congrArg y (lift_last5 red (ix4 b h g s) k)

/-- What is subtracted from a row of scores: the larger of -∞ and the row's supremum. -/
theorem localPeak_at :
    val_main_v8 (F := Ideal) x0 x1 (ix4 b h g s) = rowPeak (localLogits (headOf x0 b h) (headOf x1 b h) g s) := by
  rw [val_main_v8_apply, val_main_v7_apply, val_main_cst_1_apply, localRowSup_at]
  unfold rowPeak
  exact congrArg (max _) (iSup_congr fun k => localLogits_at x0 x1 b h g s k)

/-- The exponential of a score less the row's peak. -/
theorem localExp_at :
    val_main_v12 (F := Ideal) x0 x1 (ix5 b h g s t)
      = Ideal.exp (localLogits (headOf x0 b h) (headOf x1 b h) g s t
          - rowPeak (localLogits (headOf x0 b h) (headOf x1 b h) g s)) := by
  rw [val_main_v12_apply, val_main_v11_apply, val_main_v10_apply, val_main_v9_apply,
    show idx_main_v9 (idx_main_v10 (ix5 b h g s t)) = ix4 b h g s by coords4, localLogits_at, localPeak_at]
  rfl

/-- The sum of a row of exponentials; the sum starts from the zero pattern, which is the number 0. -/
theorem localExpSum_at :
    val_main_v13 (F := Ideal) x0 x1 (ix4 b h g s)
      = ∑ u, Ideal.exp (localLogits (headOf x0 b h) (headOf x1 b h) g s u
          - rowPeak (localLogits (headOf x0 b h) (headOf x1 b h) g s)) := by
  rw [val_main_v13_apply, val_main_cst_2_apply]
  show Ideal.ofBits .f32 0x00000000#32 + _ = _
  rw [Ideal.ofBits_zero_f32, zero_add]
  refine Finset.sum_congr rfl fun u _ => ?_
  rw [show idx_main_v13 (ix4 b h g s) u = ix5 b h g s u by coords5, localExp_at]

/-- The weights of position s over the positions of its block. -/
theorem localWeights_at :
    val_main_v16 (F := Ideal) x0 x1 (ix5 b h g s t)
      = softmaxRow (localLogits (headOf x0 b h) (headOf x1 b h) g s) t := by
  rw [val_main_v16_apply, val_main_v15_apply, val_main_v14_apply,
    show idx_main_v14 (idx_main_v15 (ix5 b h g s t)) = ix4 b h g s by coords4, localExp_at, localExpSum_at]
  rfl

/-! ## The weighted average of the block's value rows -/

theorem localOut_at :
    val_main_v17 (F := Ideal) x0 x1 x2 (ix5 b h g s d)
      = localOut (headOf x0 b h) (headOf x1 b h) (headOf x2 b h) g s d := by
  rw [val_main_v17_apply]
  unfold localOut
  refine Finset.sum_congr rfl fun k _ => ?_
  rw [show lidx_main_v17 (ix5 b h g s d) k = ix5 b h g s k by coords5,
    show ridx_main_v17 (ix5 b h g s d) k = ix5 b h g k d by coords5, localWeights_at, values_at]

end Cert.TwoLevelAttn.Ref

end
-- ==== Proof.RefBlockWeights.lean ====
/-
  The weights between the blocks, as the reference program computes them.

  The reference reads the queries and the keys a second time as [4, 16, 64, 4096]: entry (b, h, g, e) of that array,
  with e = s * 64 + d, is entry (b, h, g * 64 + s, d) of the argument, so a block is one vector of 4096 numbers. The
  score of block f for block g is the inner product over those 4096 numbers of the queries of g, scaled by 1/64,
  with the keys of f; a sum over the 4096 numbers is the sum over the positions of the sums over the features. The
  scores of block g are then turned into weights exactly as inside a block: the larger of -∞ and the row's supremum
  is subtracted, the differences are exponentiated, summed from 0, and divided. Stage by stage, at explicit
  coordinates: the scores are coarseLogits, the subtracted number is rowPeak of the row, the weights softmaxRow.

  A maximum taken over the last axis from -∞ is the supremum over the last coordinate.
-/
import proofs.«140023_j34325378629691_2_alg».proof.Proof.Gen.ReferenceIdeal.Read
import proofs.«140023_j34325378629691_2_alg».proof.Proof.AttnSpec
import proofs.«140023_j34325378629691_2_alg».proof.Proof.LibReduceExtremum

noncomputable section

namespace Cert.TwoLevelAttn.Ref

open Idealize.ShloMosaic Idealize.ShloMosaic.ValueIdx Cert.ReferenceIdeal Cert.ReferenceIdeal.Gen
  Cert.ReferenceIdeal.Read Cert.TwoLevelAttn

/-- Two rank-4 indices with the same four coordinates, coordinate by coordinate. -/
local macro "coords4" : tactic =>
  `(tactic| exact funext fun a => Fin.ext (by
      match a with | ⟨0, _⟩ => rfl | ⟨1, _⟩ => rfl | ⟨2, _⟩ => rfl | ⟨3, _⟩ => rfl))

/-- Two rank-3 indices with the same three coordinates, coordinate by coordinate. -/
local macro "coords3" : tactic =>
  `(tactic| exact funext fun a => Fin.ext (by
      match a with | ⟨0, _⟩ => rfl | ⟨1, _⟩ => rfl | ⟨2, _⟩ => rfl))

variable (x0 x1 : (⟨S4x16x4096x64, .f32⟩ : BufTy).Contents (Elt Ideal))
variable (b : Fin 4) (h : Fin 16) (g f s d : Fin 64)

/-! ## The arguments with a block as one vector -/

/-- Entry (b, h, g, s * 64 + d) of the array whose blocks are vectors sits at row g * 64 + s, feature d, of head
    (b, h): the row-major position (((b * 16 + h) * 64 + g) * 4096 + (s * 64 + d)) read back in the shape
    [4, 16, 4096, 64]. -/
theorem blockVector_index : idx_main_v19 (ix4 b h g (flatOf s d)) = ix4 b h (rowOf g s) d := by
  funext a; apply Fin.ext
  have hb := b.isLt; have hh := h.isLt; have hg := g.isLt; have hs := s.isLt; have hd := d.isLt
  match a with
  | ⟨0, _⟩ =>
    show (((b.val * 16 + h.val) * 64 + g.val) * 4096 + (s.val * 64 + d.val)) / 4194304 = b.val; omega
  | ⟨1, _⟩ =>
    show (((b.val * 16 + h.val) * 64 + g.val) * 4096 + (s.val * 64 + d.val)) / 262144 % 16 = h.val; omega
  | ⟨2, _⟩ =>
    show (((b.val * 16 + h.val) * 64 + g.val) * 4096 + (s.val * 64 + d.val)) / 64 % 4096 = g.val * 64 + s.val
    omega
  | ⟨3, _⟩ =>
    show (((b.val * 16 + h.val) * 64 + g.val) * 4096 + (s.val * 64 + d.val)) % 64 = d.val; omega

theorem queryVectors_at : val_main_v19 (F := Ideal) x0 (ix4 b h g (flatOf s d)) = headOf x0 b h g s d := by
  rw [val_main_v19_apply]
  exact congrArg x0 (blockVector_index b h g s d)

theorem keyVectors_at : val_main_v22 (F := Ideal) x1 (ix4 b h g (flatOf s d)) = headOf x1 b h g s d := by
  rw [val_main_v22_apply]
  exact congrArg x1 (blockVector_index b h g s d)

/-- The query vectors scaled by 1/64. -/
theorem scaledQueryVectors_at :
    val_main_v21 (F := Ideal) x0 (ix4 b h g (flatOf s d))
      = headOf x0 b h g s d * Ideal.ofBits .f32 0x3C800000#32 := by
  rw [val_main_v21_apply, val_main_v20_apply, val_main_cst_3_apply, queryVectors_at]
  rfl

/-! ## Scores between the blocks -/

/-- The score of block f for block g: the sum over the 4096 numbers of a block, taken as the sum over the positions
    of the sums over the features. -/
theorem coarseLogits_at :
    val_main_v23 (F := Ideal) x0 x1 (ix4 b h g f) = coarseLogits (headOf x0 b h) (headOf x1 b h) g f := by
  rw [val_main_v23_apply, sum_rows_features]
  unfold coarseLogits
  refine Finset.sum_congr rfl fun s _ => Finset.sum_congr rfl fun d _ => ?_
  rw [show lidx_main_v23 (ix4 b h g f) (flatOf s d) = ix4 b h g (flatOf s d) by coords4,
    show ridx_main_v23 (ix4 b h g f) (flatOf s d) = ix4 b h f (flatOf s d) by coords4,
    scaledQueryVectors_at, keyVectors_at]

/-- The maximum of a row of scores taken from -∞ is the supremum of the row. -/
theorem coarseRowSup_at :
    val_main_v24 (F := Ideal) x0 x1 (ix3 b h g)
      = ⨆ k : Fin 64, val_main_v23 (F := Ideal) x0 x1 (ix4 b h g k) := by
  unfold val_main_v24 val_main_cst_4
  generalize val_main_v23 (F := Ideal) x0 x1 = y
  have red : S4x16x64x64.Reduces [3] S4x16x64 := by decide
  rw [ReduceExtremum.hostReduce_max_single_negInf y _ red]
  exact iSup_congr fun k => congrArg y (ReduceExtremum.lift_last4 red (ix3 b h g) k)

/-- What is subtracted from a row of scores: the larger of -∞ and the row's supremum. -/
theorem coarsePeak_at :
    val_main_v26 (F := Ideal) x0 x1 (ix3 b h g) = rowPeak (coarseLogits (headOf x0 b h) (headOf x1 b h) g) := by
  rw [val_main_v26_apply, val_main_v25_apply, val_main_cst_5_apply, coarseRowSup_at]
  unfold rowPeak
  exact congrArg (max _) (iSup_congr fun k => coarseLogits_at x0 x1 b h g k)

/-- The exponential of a score less the row's peak. -/
theorem coarseExp_at :
    val_main_v30 (F := Ideal) x0 x1 (ix4 b h g f)
      = Ideal.exp (coarseLogits (headOf x0 b h) (headOf x1 b h) g f
          - rowPeak (coarseLogits (headOf x0 b h) (headOf x1 b h) g)) := by
  rw [val_main_v30_apply, val_main_v29_apply, val_main_v28_apply, val_main_v27_apply,
    show idx_main_v27 (idx_main_v28 (ix4 b h g f)) = ix3 b h g by coords3, coarseLogits_at, coarsePeak_at]
  rfl

/-- The sum of a row of exponentials; the sum starts from the zero pattern, which is the number 0. -/
theorem coarseExpSum_at :
    val_main_v31 (F := Ideal) x0 x1 (ix3 b h g)
      = ∑ u, Ideal.exp (coarseLogits (headOf x0 b h) (headOf x1 b h) g u
          - rowPeak (coarseLogits (headOf x0 b h) (headOf x1 b h) g)) := by
  rw [val_main_v31_apply, val_main_cst_6_apply]
  show Ideal.ofBits .f32 0x00000000#32 + _ = _
  rw [Ideal.ofBits_zero_f32, zero_add]
  refine Finset.sum_congr rfl fun u _ => ?_
  rw [show idx_main_v31 (ix3 b h g) u = ix4 b h g u by coords4, coarseExp_at]

/-- The weights of block g over the blocks. -/
theorem coarseWeights_at :
    val_main_v34 (F := Ideal) x0 x1 (ix4 b h g f)
      = softmaxRow (coarseLogits (headOf x0 b h) (headOf x1 b h) g) f := by
  rw [val_main_v34_apply, val_main_v33_apply, val_main_v32_apply,
    show idx_main_v32 (idx_main_v33 (ix4 b h g f)) = ix3 b h g by coords3, coarseExp_at, coarseExpSum_at]
  rfl

end Cert.TwoLevelAttn.Ref

end
-- ==== Proof.RefValue.lean ====
/-
  The reference, read at an index, is the two-level attention of the head the index lies in.

  The local results, an array [4, 16, 64, 64, 64] over (head, block, position, feature), are read as
  [4, 16, 64, 4096] with a block's 64 * 64 numbers as one vector: entry (b, h, f, s * 64 + d) of the second is entry
  (b, h, f, s, d) of the first. The weights between the blocks then average these vectors: entry
  (b, h, g, s * 64 + d) of the product is the sum over the blocks f of the weight of f for g times the local result of
  block f at position s and feature d, which is attnOut. Last, the [4, 16, 64, 4096] product is read as
  [4, 16, 4096, 64]: entry (b, h, n, d) is entry (b, h, n / 64, (n % 64) * 64 + d), the result for position n % 64 of
  block n / 64. Every index of the result is (b, h, n, d) for its four coordinates, so the two arrays agree everywhere.
-/
import proofs.«140023_j34325378629691_2_alg».proof.Proof.Gen.ReferenceIdeal.Read
import proofs.«140023_j34325378629691_2_alg».proof.Proof.AttnSpec
import proofs.«140023_j34325378629691_2_alg».proof.Proof.LibReduceExtremum
import proofs.«140023_j34325378629691_2_alg».proof.Proof.RefBlockAttn
import proofs.«140023_j34325378629691_2_alg».proof.Proof.RefBlockWeights

noncomputable section

namespace Cert.TwoLevelAttn.Ref

open Idealize.ShloMosaic Idealize.ShloMosaic.ValueIdx Cert.ReferenceIdeal Cert.ReferenceIdeal.Gen
  Cert.ReferenceIdeal.Read Cert.TwoLevelAttn

/-- Two rank-4 indices with the same four coordinates, coordinate by coordinate. -/
local macro "coords4" : tactic =>
  `(tactic| exact funext fun a => Fin.ext (by
      match a with | ⟨0, _⟩ => rfl | ⟨1, _⟩ => rfl | ⟨2, _⟩ => rfl | ⟨3, _⟩ => rfl))

/-- Entry (b, h, f, s * 64 + d) of the local results with a block as one vector is entry (b, h, f, s, d): the
    row-major position (((b * 16 + h) * 64 + f) * 4096 + (s * 64 + d)) read back in the shape [4, 16, 64, 64, 64]. -/
theorem localVector_index (b : Fin 4) (h : Fin 16) (f s d : Fin 64) :
    idx_main_v18 (ix4 b h f (flatOf s d)) = ix5 b h f s d := by
  funext a; apply Fin.ext
  have hb := b.isLt; have hh := h.isLt; have hf := f.isLt; have hs := s.isLt; have hd := d.isLt
  match a with
  | ⟨0, _⟩ =>
    show (((b.val * 16 + h.val) * 64 + f.val) * 4096 + (s.val * 64 + d.val)) / 4194304 = b.val; omega
  | ⟨1, _⟩ =>
    show (((b.val * 16 + h.val) * 64 + f.val) * 4096 + (s.val * 64 + d.val)) / 262144 % 16 = h.val; omega
  | ⟨2, _⟩ =>
    show (((b.val * 16 + h.val) * 64 + f.val) * 4096 + (s.val * 64 + d.val)) / 4096 % 64 = f.val; omega
  | ⟨3, _⟩ =>
    show (((b.val * 16 + h.val) * 64 + f.val) * 4096 + (s.val * 64 + d.val)) / 64 % 64 = s.val; omega
  | ⟨4, _⟩ =>
    show (((b.val * 16 + h.val) * 64 + f.val) * 4096 + (s.val * 64 + d.val)) % 64 = d.val; omega

/-- Entry (b, h, n, d) of the result sits in the product at block n / 64 and at number (n % 64) * 64 + d of the block's
    vector: the row-major position (((b * 16 + h) * 4096 + n) * 64 + d) read back in the shape [4, 16, 64, 4096]. -/
theorem resultEntry_index (b : Fin 4) (h : Fin 16) (n : Fin 4096) (d : Fin 64) :
    idx_main_v36 (ix4 b h n d) = ix4 b h (blockIx n) (flatOf (posIx n) d) := by
  funext a; apply Fin.ext
  have hb := b.isLt; have hh := h.isLt; have hn := n.isLt; have hd := d.isLt
  match a with
  | ⟨0, _⟩ => show (((b.val * 16 + h.val) * 4096 + n.val) * 64 + d.val) / 4194304 = b.val; omega
  | ⟨1, _⟩ => show (((b.val * 16 + h.val) * 4096 + n.val) * 64 + d.val) / 262144 % 16 = h.val; omega
  | ⟨2, _⟩ => show (((b.val * 16 + h.val) * 4096 + n.val) * 64 + d.val) / 4096 % 64 = n.val / 64; omega
  | ⟨3, _⟩ =>
    show (((b.val * 16 + h.val) * 4096 + n.val) * 64 + d.val) % 4096 = n.val % 64 * 64 + d.val; omega

variable (x0 x1 x2 : (⟨S4x16x4096x64, .f32⟩ : BufTy).Contents (Elt Ideal))

/-- The local results with a block as one vector. -/
theorem localVectors_at (b : Fin 4) (h : Fin 16) (f s d : Fin 64) :
    val_main_v18 (F := Ideal) x0 x1 x2 (ix4 b h f (flatOf s d))
      = localOut (headOf x0 b h) (headOf x1 b h) (headOf x2 b h) f s d := by
  rw [val_main_v18_apply, localVector_index, localOut_at]

/-- The weights between the blocks average the local results, position by position and feature by feature. -/
theorem attnVectors_at (b : Fin 4) (h : Fin 16) (g s d : Fin 64) :
    val_main_v35 (F := Ideal) x0 x1 x2 (ix4 b h g (flatOf s d))
      = attnOut (headOf x0 b h) (headOf x1 b h) (headOf x2 b h) g s d := by
  rw [val_main_v35_apply]
  unfold attnOut
  refine Finset.sum_congr rfl fun f _ => ?_
  rw [show lidx_main_v35 (ix4 b h g (flatOf s d)) f = ix4 b h g f by coords4,
    show ridx_main_v35 (ix4 b h g (flatOf s d)) f = ix4 b h f (flatOf s d) by coords4,
    coarseWeights_at, localVectors_at]

/-- The result at row n of head (b, h): position n % 64 of block n / 64. -/
theorem result_at (b : Fin 4) (h : Fin 16) (n : Fin 4096) (d : Fin 64) :
    val_main_v36 (F := Ideal) x0 x1 x2 (ix4 b h n d)
      = attnOut (headOf x0 b h) (headOf x1 b h) (headOf x2 b h) (blockIx n) (posIx n) d := by
  rw [val_main_v36_apply, resultEntry_index, attnVectors_at]

/-- The reference's result array is the two-level attention of its three argument arrays, head by head. -/
theorem reference_eq (x0 x1 x2 : (⟨S4x16x4096x64, .f32⟩ : BufTy).Contents (Elt Ideal)) :
    Cert.ReferenceIdeal.Read.val_main_v36 (F := Ideal) x0 x1 x2 = attnArray x0 x1 x2 := by
  funext i
  obtain ⟨b, h, n, d, rfl⟩ : ∃ (b : Fin 4) (h : Fin 16) (n : Fin 4096) (d : Fin 64), i = ix4 b h n d :=
    ⟨i 0, i 1, i 2, i 3, eq_ix4 i⟩
  exact result_at x0 x1 x2 b h n d

end Cert.TwoLevelAttn.Ref

end
-- ==== Proof.KernelDot.lean ====
/-
  The kernel's two batched matrix products, read at an output index as sums over the contracted coordinate.

  Both take [64, 64, 64] operands with the leading axis a batch axis and accumulate into zero. The first
  contracts the last axis of both operands: entry (b, m, n) is the sum over k of left (b, m, k) times right (b, n, k).
  The second contracts the last axis of the left operand with the middle axis of the right one: entry (b, m, n) is
  the sum over k of left (b, m, k) times right (b, k, n). On the extended reals the sum carries no order.
-/
import proofs.«140023_j34325378629691_2_alg».proof.Proof.Gen.KernelIdeal.Skeleton
import Idealize.ShloMosaic.Lib.ValueIdx
import Idealize.ShloMosaic.PureOps.Ideal.Laws

noncomputable section

namespace Cert.TwoLevelAttn.Kern

open Idealize.ShloMosaic Idealize.ShloMosaic.ValueIdx Cert.KernelIdeal

/-! ## Rows against rows: both operands contracted on their last axis -/

theorem rr_lhs0 (i : S64x64x64.Idx) (q : dot_S64x64x64_S64x64x64_S64x64x64_2_2_1_1_0_0.contr.Idx) :
    (dot_S64x64x64_S64x64x64_S64x64x64_2_2_1_1_0_0.lhsIdx i q 0).val = (i 0).val := by
  unfold DotDims.lhsIdx
  rw [dif_pos (show (0 : Fin S64x64x64.rank) ∈ dot_S64x64x64_S64x64x64_S64x64x64_2_2_1_1_0_0.lhsBatch by decide)]
  rfl
theorem rr_lhs1 (i : S64x64x64.Idx) (q : dot_S64x64x64_S64x64x64_S64x64x64_2_2_1_1_0_0.contr.Idx) :
    (dot_S64x64x64_S64x64x64_S64x64x64_2_2_1_1_0_0.lhsIdx i q 1).val = (i 1).val := by
  unfold DotDims.lhsIdx
  rw [dif_neg (show ¬(1 : Fin S64x64x64.rank) ∈ dot_S64x64x64_S64x64x64_S64x64x64_2_2_1_1_0_0.lhsBatch by decide), dif_pos (show (1 : Fin S64x64x64.rank) ∈ dot_S64x64x64_S64x64x64_S64x64x64_2_2_1_1_0_0.lhsNonContracting by decide)]
  rfl
theorem rr_lhs2 (i : S64x64x64.Idx) (q : dot_S64x64x64_S64x64x64_S64x64x64_2_2_1_1_0_0.contr.Idx) :
    (dot_S64x64x64_S64x64x64_S64x64x64_2_2_1_1_0_0.lhsIdx i q 2).val = (q ⟨0, by decide⟩).val :=
  dot_S64x64x64_S64x64x64_S64x64x64_2_2_1_1_0_0.lhsIdx_val_of_single rfl i q
theorem rr_rhs0 (i : S64x64x64.Idx) (q : dot_S64x64x64_S64x64x64_S64x64x64_2_2_1_1_0_0.contr.Idx) :
    (dot_S64x64x64_S64x64x64_S64x64x64_2_2_1_1_0_0.rhsIdx i q 0).val = (i 0).val := by
  unfold DotDims.rhsIdx
  rw [dif_pos (show (0 : Fin S64x64x64.rank) ∈ dot_S64x64x64_S64x64x64_S64x64x64_2_2_1_1_0_0.rhsBatch by decide)]
  rfl
theorem rr_rhs1 (i : S64x64x64.Idx) (q : dot_S64x64x64_S64x64x64_S64x64x64_2_2_1_1_0_0.contr.Idx) :
    (dot_S64x64x64_S64x64x64_S64x64x64_2_2_1_1_0_0.rhsIdx i q 1).val = (i 2).val := by
  unfold DotDims.rhsIdx
  rw [dif_neg (show ¬(1 : Fin S64x64x64.rank) ∈ dot_S64x64x64_S64x64x64_S64x64x64_2_2_1_1_0_0.rhsBatch by decide), dif_pos (show (1 : Fin S64x64x64.rank) ∈ dot_S64x64x64_S64x64x64_S64x64x64_2_2_1_1_0_0.rhsNonContracting by decide)]
  rfl
theorem rr_rhs2 (i : S64x64x64.Idx) (q : dot_S64x64x64_S64x64x64_S64x64x64_2_2_1_1_0_0.contr.Idx) :
    (dot_S64x64x64_S64x64x64_S64x64x64_2_2_1_1_0_0.rhsIdx i q 2).val = (q ⟨0, by decide⟩).val :=
  dot_S64x64x64_S64x64x64_S64x64x64_2_2_1_1_0_0.rhsIdx_val_of_single rfl i q

/-- Entry (b, m, n) of the product that contracts both last axes, into zero. -/
theorem matmul_rows_rows {φ₁ φ₂ : FTy} (lhs : FVec Ideal S64x64x64 φ₁) (rhs : FVec Ideal S64x64x64 φ₂) (b m n : Fin 64) :
    matmul dot_S64x64x64_S64x64x64_S64x64x64_2_2_1_1_0_0 none lhs rhs (constant (F := Ideal) S64x64x64 .f32 0x00000000#32) (ix3 b m n)
      = ∑ k : Fin 64, lhs (ix3 b m k) * rhs (ix3 b n k) := by
  simp only [matmul]
  rw [Ideal.matmul_constant_zero_apply, ← Equiv.sum_comp (contrEquiv1 dot_S64x64x64_S64x64x64_S64x64x64_2_2_1_1_0_0 64 rfl rfl).symm]
  refine Finset.sum_congr rfl fun k _ => ?_
  have hk := contrEquiv1_symm_val dot_S64x64x64_S64x64x64_S64x64x64_2_2_1_1_0_0 64 rfl rfl k
  have el : dot_S64x64x64_S64x64x64_S64x64x64_2_2_1_1_0_0.lhsIdx (ix3 b m n) ((contrEquiv1 dot_S64x64x64_S64x64x64_S64x64x64_2_2_1_1_0_0 64 rfl rfl).symm k) = ix3 b m k := funext fun a => Fin.ext (by
    match a with
    | ⟨0, _⟩ => exact rr_lhs0 _ _
    | ⟨1, _⟩ => exact rr_lhs1 _ _
    | ⟨2, _⟩ => exact (rr_lhs2 _ _).trans hk)
  have er : dot_S64x64x64_S64x64x64_S64x64x64_2_2_1_1_0_0.rhsIdx (ix3 b m n) ((contrEquiv1 dot_S64x64x64_S64x64x64_S64x64x64_2_2_1_1_0_0 64 rfl rfl).symm k) = ix3 b n k := funext fun a => Fin.ext (by
    match a with
    | ⟨0, _⟩ => exact rr_rhs0 _ _
    | ⟨1, _⟩ => exact rr_rhs1 _ _
    | ⟨2, _⟩ => exact (rr_rhs2 _ _).trans hk)
  rw [el, er]

/-! ## Rows against columns: the left operand's last axis against the right operand's middle axis -/

theorem rc_lhs0 (i : S64x64x64.Idx) (q : dot_S64x64x64_S64x64x64_S64x64x64_2_1_1_2_0_0.contr.Idx) :
    (dot_S64x64x64_S64x64x64_S64x64x64_2_1_1_2_0_0.lhsIdx i q 0).val = (i 0).val := by
  unfold DotDims.lhsIdx
  rw [dif_pos (show (0 : Fin S64x64x64.rank) ∈ dot_S64x64x64_S64x64x64_S64x64x64_2_1_1_2_0_0.lhsBatch by decide)]
  rfl
theorem rc_lhs1 (i : S64x64x64.Idx) (q : dot_S64x64x64_S64x64x64_S64x64x64_2_1_1_2_0_0.contr.Idx) :
    (dot_S64x64x64_S64x64x64_S64x64x64_2_1_1_2_0_0.lhsIdx i q 1).val = (i 1).val := by
  unfold DotDims.lhsIdx
  rw [dif_neg (show ¬(1 : Fin S64x64x64.rank) ∈ dot_S64x64x64_S64x64x64_S64x64x64_2_1_1_2_0_0.lhsBatch by decide), dif_pos (show (1 : Fin S64x64x64.rank) ∈ dot_S64x64x64_S64x64x64_S64x64x64_2_1_1_2_0_0.lhsNonContracting by decide)]
  rfl
theorem rc_lhs2 (i : S64x64x64.Idx) (q : dot_S64x64x64_S64x64x64_S64x64x64_2_1_1_2_0_0.contr.Idx) :
    (dot_S64x64x64_S64x64x64_S64x64x64_2_1_1_2_0_0.lhsIdx i q 2).val = (q ⟨0, by decide⟩).val :=
  dot_S64x64x64_S64x64x64_S64x64x64_2_1_1_2_0_0.lhsIdx_val_of_single rfl i q
theorem rc_rhs0 (i : S64x64x64.Idx) (q : dot_S64x64x64_S64x64x64_S64x64x64_2_1_1_2_0_0.contr.Idx) :
    (dot_S64x64x64_S64x64x64_S64x64x64_2_1_1_2_0_0.rhsIdx i q 0).val = (i 0).val := by
  unfold DotDims.rhsIdx
  rw [dif_pos (show (0 : Fin S64x64x64.rank) ∈ dot_S64x64x64_S64x64x64_S64x64x64_2_1_1_2_0_0.rhsBatch by decide)]
  rfl
theorem rc_rhs1 (i : S64x64x64.Idx) (q : dot_S64x64x64_S64x64x64_S64x64x64_2_1_1_2_0_0.contr.Idx) :
    (dot_S64x64x64_S64x64x64_S64x64x64_2_1_1_2_0_0.rhsIdx i q 1).val = (q ⟨0, by decide⟩).val :=
  dot_S64x64x64_S64x64x64_S64x64x64_2_1_1_2_0_0.rhsIdx_val_of_single rfl i q
theorem rc_rhs2 (i : S64x64x64.Idx) (q : dot_S64x64x64_S64x64x64_S64x64x64_2_1_1_2_0_0.contr.Idx) :
    (dot_S64x64x64_S64x64x64_S64x64x64_2_1_1_2_0_0.rhsIdx i q 2).val = (i 2).val := by
  unfold DotDims.rhsIdx
  rw [dif_neg (show ¬(2 : Fin S64x64x64.rank) ∈ dot_S64x64x64_S64x64x64_S64x64x64_2_1_1_2_0_0.rhsBatch by decide), dif_pos (show (2 : Fin S64x64x64.rank) ∈ dot_S64x64x64_S64x64x64_S64x64x64_2_1_1_2_0_0.rhsNonContracting by decide)]
  rfl

/-- Entry (b, m, n) of the product that contracts the left operand's last axis with the right operand's middle axis, into zero. -/
theorem matmul_rows_cols {φ₁ φ₂ : FTy} (lhs : FVec Ideal S64x64x64 φ₁) (rhs : FVec Ideal S64x64x64 φ₂) (b m n : Fin 64) :
    matmul dot_S64x64x64_S64x64x64_S64x64x64_2_1_1_2_0_0 none lhs rhs (constant (F := Ideal) S64x64x64 .f32 0x00000000#32) (ix3 b m n)
      = ∑ k : Fin 64, lhs (ix3 b m k) * rhs (ix3 b k n) := by
  simp only [matmul]
  rw [Ideal.matmul_constant_zero_apply, ← Equiv.sum_comp (contrEquiv1 dot_S64x64x64_S64x64x64_S64x64x64_2_1_1_2_0_0 64 rfl rfl).symm]
  refine Finset.sum_congr rfl fun k _ => ?_
  have hk := contrEquiv1_symm_val dot_S64x64x64_S64x64x64_S64x64x64_2_1_1_2_0_0 64 rfl rfl k
  have el : dot_S64x64x64_S64x64x64_S64x64x64_2_1_1_2_0_0.lhsIdx (ix3 b m n) ((contrEquiv1 dot_S64x64x64_S64x64x64_S64x64x64_2_1_1_2_0_0 64 rfl rfl).symm k) = ix3 b m k := funext fun a => Fin.ext (by
    match a with
    | ⟨0, _⟩ => exact rc_lhs0 _ _
    | ⟨1, _⟩ => exact rc_lhs1 _ _
    | ⟨2, _⟩ => exact (rc_lhs2 _ _).trans hk)
  have er : dot_S64x64x64_S64x64x64_S64x64x64_2_1_1_2_0_0.rhsIdx (ix3 b m n) ((contrEquiv1 dot_S64x64x64_S64x64x64_S64x64x64_2_1_1_2_0_0 64 rfl rfl).symm k) = ix3 b k n := funext fun a => Fin.ext (by
    match a with
    | ⟨0, _⟩ => exact rc_rhs0 _ _
    | ⟨1, _⟩ => exact (rc_rhs1 _ _).trans hk
    | ⟨2, _⟩ => exact rc_rhs2 _ _)
  rw [el, er]

end Cert.TwoLevelAttn.Kern

end
-- ==== Proof.KernelLayout.lean ====
/-
  The kernel body's re-arrangements of a [1, 1, 4096, 64] block, read at an index by coordinates.

  A block holds one head: 4096 rows of 64 features. Cut into 64 groups of 64 rows, entry (g, s, d) of the
  [64, 64, 64] view is row g * 64 + s, feature d, of the block; back again, row n, feature d of the block is
  entry (n / 64, n % 64, d). Exchanging the two leading axes of a [64, 64, 64] array reads (a, b, c) at
  (b, a, c). A [64, 64] array spread along a new last axis reads (g, s, t) at (g, s); a [64] vector spread
  along a new last axis reads (g, f) at g; a [64, 64] array repeated along a new leading axis reads (s, g, f)
  at (g, f). Reducing the last axis of a rank-3 array, its first axis, or the last axis of a rank-2 array puts
  the reduced coordinate back where it was.
-/
import proofs.«140023_j34325378629691_2_alg».proof.Proof.Gen.KernelIdeal.Skeleton
import proofs.«140023_j34325378629691_2_alg».proof.Proof.AttnSpec
import Idealize.ShloMosaic.Lib.ValueIdx
import Idealize.ShloMosaic.Lib.Pipeline.Value

noncomputable section

namespace Cert.TwoLevelAttn.Kern

open Idealize.ShloMosaic Idealize.ShloMosaic.ValueIdx Cert.KernelIdeal Cert.TwoLevelAttn

variable {α : Type}

/-- The block as [64, 64, 64]: entry (g, s, d) is row g * 64 + s, feature d. -/
theorem block_as_groups (x : S1x1x4096x64.Idx → α) (h1 : S1x1x4096x64.ShapeCasts S4096x64) (h2 : S4096x64.ShapeCasts S64x64x64)
    (g s d : Fin 64) :
    shapeCast S64x64x64 (shapeCast S4096x64 x h1) h2 (ix3 g s d) = x (ix4 0 0 (rowOf g s) d) := by
  refine (shapeCast_apply _ h2 (ix3 g s d) (ix2 (rowOf g s) d) ?_).trans ?_
  · rw [Shape.rowMajor_val_two, Shape.rowMajor_val_three]
    show (g.val * 64 + s.val) * 64 + d.val = (g.val * 64 + s.val) * 64 + d.val
    rfl
  · refine shapeCast_apply x h1 (ix2 (rowOf g s) d) (ix4 0 0 (rowOf g s) d) ?_
    rw [Shape.rowMajor_val_two, Shape.rowMajor_val_four]
    show ((0 * 1 + 0) * 4096 + (g.val * 64 + s.val)) * 64 + d.val = (g.val * 64 + s.val) * 64 + d.val
    omega

/-- [64, 64, 64] back to a block: row n, feature d is entry (n / 64, n % 64, d). -/
theorem groups_as_block (x : S64x64x64.Idx → α) (h1 : S64x64x64.ShapeCasts S4096x64) (h2 : S4096x64.ShapeCasts S1x1x4096x64)
    (n : Fin 4096) (d : Fin 64) :
    shapeCast S1x1x4096x64 (shapeCast S4096x64 x h1) h2 (ix4 0 0 n d) = x (ix3 (blockIx n) (posIx n) d) := by
  refine (shapeCast_apply _ h2 (ix4 0 0 n d) (ix2 n d) ?_).trans ?_
  · rw [Shape.rowMajor_val_two, Shape.rowMajor_val_four]
    show n.val * 64 + d.val = ((0 * 1 + 0) * 4096 + n.val) * 64 + d.val
    omega
  · refine shapeCast_apply x h1 (ix2 n d) (ix3 (blockIx n) (posIx n) d) ?_
    rw [Shape.rowMajor_val_two, Shape.rowMajor_val_three]
    show (n.val / 64 * 64 + n.val % 64) * 64 + d.val = n.val * 64 + d.val
    omega

/-- Exchanging the two leading axes. -/
theorem swap_leading (x : S64x64x64.Idx → α) (h : S64x64x64.Transposes [1, 0, 2] S64x64x64) (a b c : Fin 64) :
    transpose S64x64x64 [1, 0, 2] x h (ix3 a b c) = x (ix3 b a c) :=
  transpose_apply [1, 0, 2] x h (ix3 a b c) (ix3 b a c) fun e => by
    match e with
    | ⟨0, _⟩ => rfl
    | ⟨1, _⟩ => rfl
    | ⟨2, _⟩ => rfl

/-- A [64, 64] array spread along a new last axis. -/
theorem spread_last3 (x : S64x64.Idx → α) (h1 : S64x64.ShapeCasts S64x64x1) (h2 : S64x64x1.Broadcasts S64x64x64) (g s t : Fin 64) :
    broadcastTo S64x64x64 (shapeCast S64x64x1 x h1) h2 (ix3 g s t) = x (ix2 g s) := by
  refine (broadcastTo_apply _ h2 (ix3 g s t) (ix3 g s 0) fun a => ?_).trans ?_
  · match a with
    | ⟨0, _⟩ => rfl
    | ⟨1, _⟩ => rfl
    | ⟨2, _⟩ => rfl
  · refine shapeCast_apply x h1 (ix3 g s 0) (ix2 g s) ?_
    rw [Shape.rowMajor_val_two, Shape.rowMajor_val_three]
    show g.val * 64 + s.val = (g.val * 64 + s.val) * 1 + 0
    omega

/-- A [64] vector spread along a new last axis. -/
theorem spread_last2 (x : S64.Idx → α) (h1 : S64.ShapeCasts S64x1) (h2 : S64x1.Broadcasts S64x64) (g f : Fin 64) :
    broadcastTo S64x64 (shapeCast S64x1 x h1) h2 (ix2 g f) = x (ix1 g) := by
  refine (broadcastTo_apply _ h2 (ix2 g f) (ix2 g 0) fun a => ?_).trans ?_
  · match a with
    | ⟨0, _⟩ => rfl
    | ⟨1, _⟩ => rfl
  · refine shapeCast_apply x h1 (ix2 g 0) (ix1 g) ?_
    rw [Shape.rowMajor_val_one, Shape.rowMajor_val_two]
    show g.val = g.val * 1 + 0
    omega

/-- A [64, 64] array repeated along a new leading axis. -/
theorem repeat_leading (x : S64x64.Idx → α) (h1 : S64x64.ShapeCasts S1x64x64) (h2 : S1x64x64.ShapeCasts S1x64x64)
    (h3 : S1x64x64.Broadcasts S64x64x64) (s g f : Fin 64) :
    broadcastTo S64x64x64 (shapeCast S1x64x64 (shapeCast S1x64x64 x h1) h2) h3 (ix3 s g f) = x (ix2 g f) := by
  rw [shapeCast_self _ h2]
  refine (broadcastTo_apply _ h3 (ix3 s g f) (ix3 0 g f) fun a => ?_).trans ?_
  · match a with
    | ⟨0, _⟩ => rfl
    | ⟨1, _⟩ => rfl
    | ⟨2, _⟩ => rfl
  · refine shapeCast_apply x h1 (ix3 0 g f) (ix2 g f) ?_
    rw [Shape.rowMajor_val_two, Shape.rowMajor_val_three]
    show g.val * 64 + f.val = (0 * 64 + g.val) * 64 + f.val
    omega

/-- The last axis of a rank-3 array reduced: coordinate k goes back last. -/
theorem lift_last3 (h : S64x64x64.Reduces [2] S64x64) (g s : Fin 64) (k : Fin 64) : h.lift (ix2 g s) k = ix3 g s k := by
  funext c; apply Fin.ext
  match c with | ⟨0, _⟩ => rfl | ⟨1, _⟩ => rfl | ⟨2, _⟩ => rfl

/-- The first axis of a rank-3 array reduced: coordinate k goes back first. -/
theorem lift_first3 (h : S64x64x64.Reduces [0] S64x64) (g f : Fin 64) (k : Fin 64) : h.lift (ix2 g f) k = ix3 k g f := by
  funext c; apply Fin.ext
  match c with | ⟨0, _⟩ => rfl | ⟨1, _⟩ => rfl | ⟨2, _⟩ => rfl

/-- The last axis of a rank-2 array reduced: coordinate k goes back last. -/
theorem lift_last2' (h : S64x64.Reduces [1] S64) (g : Fin 64) (k : Fin 64) : h.lift (ix1 g) k = ix2 g k := by
  funext c; apply Fin.ext
  match c with | ⟨0, _⟩ => rfl | ⟨1, _⟩ => rfl

end Cert.TwoLevelAttn.Kern

end
-- ==== Proof.KernelSoftmax.lean ====
/-
  The kernel's two softmaxes, read at an index as the softmax of a row.

  The kernel normalises a [64, 64, 64] array of scores along its last axis, and a [64, 64] array along its last
  axis, in the same five steps: the maximum along the axis (started from -∞) joined once more with -∞; that value
  spread back along the axis and subtracted; the exponential; the sum along the axis; the quotient by that sum
  spread back. Entry (g, s, t) of the first is the softmax weight of entry t of the row u ↦ x (g, s, u); entry
  (g, f) of the second is the weight of entry f of the row u ↦ y (g, u). A maximum started from -∞ is a supremum
  on the extended reals, and a sum along one axis is a sum over that axis's coordinates.
-/
import proofs.«140023_j34325378629691_2_alg».proof.Proof.Gen.KernelIdeal.Skeleton
import proofs.«140023_j34325378629691_2_alg».proof.Proof.AttnSpec
import proofs.«140023_j34325378629691_2_alg».proof.Proof.LibReduceExtremum
import proofs.«140023_j34325378629691_2_alg».proof.Proof.KernelLayout

noncomputable section

namespace Cert.TwoLevelAttn.Kern

open Idealize.ShloMosaic Idealize.ShloMosaic.ValueIdx Idealize.ShloMosaic.ReduceExtremum
open Cert.KernelIdeal Cert.KernelIdeal.Gen Cert.TwoLevelAttn

/-- A sum along one axis, with the accumulator's side condition spelt as the program carries it (the zero pattern
    equal to itself): the sum over that axis's coordinates. -/
theorem sum_single_printed {s t : Shape} {a : Fin s.rank} (src : FVec Ideal s .f32) (h : s.Reduces [a] t)
    (hφ : FKind.Formats .f32) (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-! ## Along the last axis of a [64, 64, 64] array -/

/-- What is subtracted before the exponential: the larger of -∞ and the maximum along the last axis, spread back. -/
def peakLast3 (x : FVec Ideal S64x64x64 .f32) : FVec Ideal S64x64x64 .f32 :=
  broadcastTo S64x64x64 (shapeCast S64x64x1 (maximumf (broadcast S64x64 (Scalar.ofBits (F := Ideal) .f32 0xFF800000#32))
    (multiReduction .maximumf [2] S64x64 x 0xFF800000#32 reduces_S64x64x64_S64x64 (.inl rfl) rfl)) shapeCasts_S64x64_S64x64x1)
    broadcasts_S64x64x1_S64x64x64

/-- The exponentials of the shifted scores. -/
def expLast3 (x : FVec Ideal S64x64x64 .f32) : FVec Ideal S64x64x64 .f32 := exp (subf x (peakLast3 x))

/-- The weights: each exponential over the sum of its row's exponentials. -/
def softmaxLast3 (x : FVec Ideal S64x64x64 .f32) : FVec Ideal S64x64x64 .f32 :=
  divf (expLast3 x) (broadcastTo S64x64x64 (shapeCast S64x64x1
    (multiReduction .add [2] S64x64 (expLast3 x) 0x00000000#32 reduces_S64x64x64_S64x64 (.inl rfl) rfl) shapeCasts_S64x64_S64x64x1)
    broadcasts_S64x64x1_S64x64x64)

theorem peakLast3_apply (x : FVec Ideal S64x64x64 .f32) (g s t : Fin 64) :
    peakLast3 x (ix3 g s t) = rowPeak (fun u => x (ix3 g s u)) := by
  unfold peakLast3
  rw [spread_last3, maximumf_apply, broadcast_apply, multiReduction_max_single_f32_printed]
  unfold rowPeak
  refine congrArg (max _) (iSup_congr fun k => ?_)
  exact congrArg x (lift_last3 _ g s k)

theorem expLast3_apply (x : FVec Ideal S64x64x64 .f32) (g s t : Fin 64) :
    expLast3 x (ix3 g s t) = Ideal.exp (x (ix3 g s t) - rowPeak (fun u => x (ix3 g s u))) := by
  unfold expLast3
  show Ideal.exp (x (ix3 g s t) - peakLast3 x (ix3 g s t)) = _
  rw [peakLast3_apply]

/-- Entry (g, s, t) is the softmax weight of entry t of the row of scores at (g, s). -/
theorem softmaxLast3_apply (x : FVec Ideal S64x64x64 .f32) (g s t : Fin 64) :
    softmaxLast3 x (ix3 g s t) = softmaxRow (fun u => x (ix3 g s u)) t := by
  unfold softmaxLast3
  rw [divf_apply, spread_last3, sum_single_printed, expLast3_apply]
  unfold softmaxRow
  refine congrArg (Ideal.div _) (Finset.sum_congr rfl fun k _ => ?_)
  exact (congrArg (expLast3 x) (lift_last3 _ g s k)).trans (expLast3_apply x g s k)

/-! ## Along the last axis of a [64, 64] array -/

/-- What is subtracted before the exponential: the larger of -∞ and the maximum along the last axis, spread back. -/
def peakLast2 (y : FVec Ideal S64x64 .f32) : FVec Ideal S64x64 .f32 :=
  broadcastTo S64x64 (shapeCast S64x1 (maximumf (broadcast S64 (Scalar.ofBits (F := Ideal) .f32 0xFF800000#32))
    (multiReduction .maximumf [1] S64 y 0xFF800000#32 reduces_S64x64_S64 (.inl rfl) rfl)) shapeCasts_S64_S64x1)
    broadcasts_S64x1_S64x64

/-- The exponentials of the shifted scores. -/
def expLast2 (y : FVec Ideal S64x64 .f32) : FVec Ideal S64x64 .f32 := exp (subf y (peakLast2 y))

/-- The weights: each exponential over the sum of its row's exponentials. -/
def softmaxLast2 (y : FVec Ideal S64x64 .f32) : FVec Ideal S64x64 .f32 :=
  divf (expLast2 y) (broadcastTo S64x64 (shapeCast S64x1
    (multiReduction .add [1] S64 (expLast2 y) 0x00000000#32 reduces_S64x64_S64 (.inl rfl) rfl) shapeCasts_S64_S64x1)
    broadcasts_S64x1_S64x64)

theorem peakLast2_apply (y : FVec Ideal S64x64 .f32) (g f : Fin 64) :
    peakLast2 y (ix2 g f) = rowPeak (fun u => y (ix2 g u)) := by
  unfold peakLast2
  rw [spread_last2, maximumf_apply, broadcast_apply, multiReduction_max_single_f32_printed]
  unfold rowPeak
  refine congrArg (max _) (iSup_congr fun k => ?_)
  exact congrArg y (lift_last2' _ g k)

theorem expLast2_apply (y : FVec Ideal S64x64 .f32) (g f : Fin 64) :
    expLast2 y (ix2 g f) = Ideal.exp (y (ix2 g f) - rowPeak (fun u => y (ix2 g u))) := by
  unfold expLast2
  show Ideal.exp (y (ix2 g f) - peakLast2 y (ix2 g f)) = _
  rw [peakLast2_apply]

/-- Entry (g, f) is the softmax weight of entry f of the row of scores at g. -/
theorem softmaxLast2_apply (y : FVec Ideal S64x64 .f32) (g f : Fin 64) :
    softmaxLast2 y (ix2 g f) = softmaxRow (fun u => y (ix2 g u)) f := by
  unfold softmaxLast2
  rw [divf_apply, spread_last2, sum_single_printed, expLast2_apply]
  unfold softmaxRow
  refine congrArg (Ideal.div _) (Finset.sum_congr rfl fun k _ => ?_)
  exact (congrArg (expLast2 y) (lift_last2' _ g k)).trans (expLast2_apply y g k)

end Cert.TwoLevelAttn.Kern

end
-- ==== Proof.KernelValue.lean ====
/-
  The kernel body's stored block, read at an index, is the two-level attention of the one head its three input
  blocks hold.

  The body cuts the query, key and value blocks into 64 groups of 64 rows. First level: the scores of a group are
  the products of its query rows (scaled by 1/8) with its key rows, a batched matrix product over the groups; a
  softmax along the last axis; the weights times the group's value rows, a second batched product. Second level:
  with the two leading axes exchanged the batch axis is the position inside a group, and the product of the queries
  (scaled by 1/64) with the keys gives, for each position, the 64 by 64 array of its contribution to the scores
  between groups; summing over the positions gives the scores between groups, a sum over positions of sums over
  features; a softmax along the last axis; the weights, repeated for every position, times the first level's
  results of that position, a third batched product; the leading axes exchanged back and the groups laid out as
  rows. Every change of float format is the identity on the extended reals.
-/
import proofs.«140023_j34325378629691_2_alg».proof.Proof.Gen.KernelIdeal.Skeleton
import proofs.«140023_j34325378629691_2_alg».proof.Proof.AttnSpec
import proofs.«140023_j34325378629691_2_alg».proof.Proof.LibReduceExtremum
import proofs.«140023_j34325378629691_2_alg».proof.Proof.KernelDot
import proofs.«140023_j34325378629691_2_alg».proof.Proof.KernelLayout
import proofs.«140023_j34325378629691_2_alg».proof.Proof.KernelSoftmax

noncomputable section

namespace Cert.TwoLevelAttn.Kern

open Idealize.ShloMosaic Idealize.ShloMosaic.ValueIdx Cert.KernelIdeal Cert.KernelIdeal.Gen Cert.TwoLevelAttn

/-! ## The blocks cut into groups -/

theorem queries_apply (x : Vec Ideal S1x1x4096x64 .f32) (g s d : Fin 64) :
    k0_pay2 x (ix3 g s d) = headOfBlock x g s d := by
  unfold k0_pay2
  exact block_as_groups x _ _ g s d

theorem keys_apply (x : Vec Ideal S1x1x4096x64 .f32) (g s d : Fin 64) :
    k0_pay3 x (ix3 g s d) = headOfBlock x g s d := by
  unfold k0_pay3
  exact block_as_groups x _ _ g s d

/-! ## First level: attention inside the groups -/

/-- The scores inside the groups, as the body computes them. -/
def scoresInGroups (x0 x1 : Vec Ideal S1x1x4096x64 .f32) : FVec Ideal S64x64x64 .f32 :=
  matmul dot_S64x64x64_S64x64x64_S64x64x64_2_2_1_1_0_0 none
    (truncf .bf16 (mulf (k0_pay2 x0) (broadcast S64x64x64 (Scalar.ofBits (F := Ideal) .f32 0x3E000000#32))) bitsLt_bf16_f32)
    (truncf .bf16 (k0_pay3 x1) bitsLt_bf16_f32) (constant (F := Ideal) S64x64x64 .f32 0x00000000#32)

theorem scoresInGroups_apply (x0 x1 : Vec Ideal S1x1x4096x64 .f32) (g s t : Fin 64) :
    scoresInGroups x0 x1 (ix3 g s t) = localLogits (headOfBlock x0) (headOfBlock x1) g s t := by
  unfold scoresInGroups
  rw [matmul_rows_rows]
  unfold localLogits
  refine Finset.sum_congr rfl fun d _ => ?_
  rw [truncf_apply, truncf_apply, mulf_apply, broadcast_apply, queries_apply, keys_apply]
  rfl

theorem scoresInGroups_row (x0 x1 : Vec Ideal S1x1x4096x64 .f32) (g s : Fin 64) :
    (fun u => scoresInGroups x0 x1 (ix3 g s u)) = localLogits (headOfBlock x0) (headOfBlock x1) g s :=
  funext fun u => scoresInGroups_apply x0 x1 g s u

/-- The first level's result is the second product, of the weights with the value rows. -/
theorem resultInGroups_eq (x0 x1 x2 : Vec Ideal S1x1x4096x64 .f32) :
    k0_pay4 x0 x1 x2 = matmul dot_S64x64x64_S64x64x64_S64x64x64_2_1_1_2_0_0 none
      (truncf .bf16 (softmaxLast3 (scoresInGroups x0 x1)) bitsLt_bf16_f32)
      (truncf .bf16 (shapeCast S64x64x64 (shapeCast S4096x64 x2 shapeCasts_S1x1x4096x64_S4096x64) shapeCasts_S4096x64_S64x64x64) bitsLt_bf16_f32)
      (constant (F := Ideal) S64x64x64 .f32 0x00000000#32) := rfl

theorem resultInGroups_apply (x0 x1 x2 : Vec Ideal S1x1x4096x64 .f32) (g s d : Fin 64) :
    k0_pay4 x0 x1 x2 (ix3 g s d) = localOut (headOfBlock x0) (headOfBlock x1) (headOfBlock x2) g s d := by
  rw [resultInGroups_eq, matmul_rows_cols]
  unfold localOut
  refine Finset.sum_congr rfl fun t _ => ?_
  rw [truncf_apply, truncf_apply, softmaxLast3_apply, scoresInGroups_row, block_as_groups]
  rfl

/-! ## Second level: attention between the groups -/

/-- Each position's contribution to the scores between groups. -/
def scoresByPosition (x0 x1 : Vec Ideal S1x1x4096x64 .f32) : FVec Ideal S64x64x64 .f32 :=
  matmul dot_S64x64x64_S64x64x64_S64x64x64_2_2_1_1_0_0 none
    (truncf .bf16 (transpose S64x64x64 [1, 0, 2] (mulf (k0_pay2 x0) (broadcast S64x64x64 (Scalar.ofBits (F := Ideal) .f32 0x3C800000#32)))
      transposes_S64x64x64_p1_0_2_S64x64x64) bitsLt_bf16_f32)
    (truncf .bf16 (transpose S64x64x64 [1, 0, 2] (k0_pay3 x1) transposes_S64x64x64_p1_0_2_S64x64x64) bitsLt_bf16_f32)
    (constant (F := Ideal) S64x64x64 .f32 0x00000000#32)

theorem scoresByPosition_apply (x0 x1 : Vec Ideal S1x1x4096x64 .f32) (s g f : Fin 64) :
    scoresByPosition x0 x1 (ix3 s g f)
      = ∑ d, (headOfBlock x0 g s d * Ideal.ofBits .f32 0x3C800000#32) * headOfBlock x1 f s d := by
  unfold scoresByPosition
  rw [matmul_rows_rows]
  refine Finset.sum_congr rfl fun d _ => ?_
  rw [truncf_apply, truncf_apply, swap_leading, swap_leading, mulf_apply, broadcast_apply, queries_apply, keys_apply]
  rfl

/-- The scores between groups are the contributions summed over the positions. -/
theorem scoresBetweenGroups_eq (x0 x1 : Vec Ideal S1x1x4096x64 .f32) :
    k0_pay5 x0 x1 = multiReduction .add [0] S64x64 (scoresByPosition x0 x1) 0x00000000#32 reduces_S64x64x64_S64x64_2 (.inl rfl) rfl := rfl

theorem scoresBetweenGroups_apply (x0 x1 : Vec Ideal S1x1x4096x64 .f32) (g f : Fin 64) :
    k0_pay5 x0 x1 (ix2 g f) = coarseLogits (headOfBlock x0) (headOfBlock x1) g f := by
  rw [scoresBetweenGroups_eq, sum_single_printed]
  unfold coarseLogits
  refine Finset.sum_congr rfl fun s _ => ?_
  exact (congrArg (scoresByPosition x0 x1) (lift_first3 _ g f s)).trans (scoresByPosition_apply x0 x1 s g f)

theorem scoresBetweenGroups_row (x0 x1 : Vec Ideal S1x1x4096x64 .f32) (g : Fin 64) :
    (fun u => k0_pay5 x0 x1 (ix2 g u)) = coarseLogits (headOfBlock x0) (headOfBlock x1) g :=
  funext fun u => scoresBetweenGroups_apply x0 x1 g u

/-- The weights between groups, repeated for every position, times the first level's results of that position. -/
def mixedByPosition (r : FVec Ideal S64x64x64 .f32) (y : FVec Ideal S64x64 .f32) : FVec Ideal S64x64x64 .f32 :=
  matmul dot_S64x64x64_S64x64x64_S64x64x64_2_1_1_2_0_0 none
    (broadcastTo S64x64x64 (shapeCast S1x64x64 (shapeCast S1x64x64 (truncf .bf16 (softmaxLast2 y) bitsLt_bf16_f32)
      shapeCasts_S64x64_S1x64x64) shapeCasts_S1x64x64_S1x64x64) broadcasts_S1x64x64_S64x64x64)
    (truncf .bf16 (transpose S64x64x64 [1, 0, 2] r transposes_S64x64x64_p1_0_2_S64x64x64) bitsLt_bf16_f32)
    (constant (F := Ideal) S64x64x64 .f32 0x00000000#32)

theorem mixedByPosition_apply (r : FVec Ideal S64x64x64 .f32) (y : FVec Ideal S64x64 .f32) (s g d : Fin 64) :
    mixedByPosition r y (ix3 s g d) = ∑ f, softmaxRow (fun u => y (ix2 g u)) f * r (ix3 f s d) := by
  unfold mixedByPosition
  rw [matmul_rows_cols]
  refine Finset.sum_congr rfl fun f _ => ?_
  rw [repeat_leading, truncf_apply, truncf_apply, softmaxLast2_apply, swap_leading]

/-- The stored block: the mixed results with the leading axes exchanged back, the groups laid out as rows. -/
theorem stored_eq (r : FVec Ideal S64x64x64 .f32) (y : FVec Ideal S64x64 .f32) :
    k0_pay1 r y = shapeCast S1x1x4096x64 (shapeCast S4096x64
      (transpose S64x64x64 [1, 0, 2] (mixedByPosition r y) transposes_S64x64x64_p1_0_2_S64x64x64)
      shapeCasts_S64x64x64_S4096x64) shapeCasts_S4096x64_S1x1x4096x64 := rfl

/-- Row `n`, feature `d` of the block the body stores is the attention result at position `n % 64` of block `n / 64`. -/
theorem payload_eq (x0 x1 x2 : Vec Ideal S1x1x4096x64 .f32) (n : Fin 4096) (d : Fin 64) :
    k0_pay1 (k0_pay4 x0 x1 x2) (k0_pay5 x0 x1) (ix4 0 0 n d)
      = attnOut (headOfBlock x0) (headOfBlock x1) (headOfBlock x2) (blockIx n) (posIx n) d := by
  rw [stored_eq, groups_as_block, swap_leading, mixedByPosition_apply, scoresBetweenGroups_row]
  unfold attnOut
  refine Finset.sum_congr rfl fun f _ => ?_
  rw [resultInGroups_apply]

end Cert.TwoLevelAttn.Kern

end
-- ==== Proof.KernelArray.lean ====
/-
  The kernel's result array after the run is the two-level attention of its three argument arrays.

  The grid has one point per head: point `t` is head `(t / 16, t % 16)`. At that point each of the three argument
  windows holds the head's 4096 rows of 64 features whole, and the result window's block, written back there, is
  the same head of the result array. The body's stored block is the two-level attention of the head its three
  input blocks hold; the 64 blocks written back are disjoint and fill the array; so the array ends holding,
  head by head, the attention of the arguments' heads.
-/
import proofs.«140023_j34325378629691_2_alg».proof.Proof.Gen.KernelIdeal.Value
import proofs.«140023_j34325378629691_2_alg».proof.Proof.KernelValue
import proofs.«140023_j34325378629691_2_alg».proof.Proof.AttnSpec

noncomputable section

namespace Cert.TwoLevelAttn.Arr

open Cert.KernelIdeal Cert.KernelIdeal.Gen Idealize.ShloMosaic Idealize.ShloMosaic.TcCoe Idealize.SL.Sem
open Idealize.ShloMosaic.ValueIdx Cert.TwoLevelAttn
open Idealize.ShloMosaic.Pipeline (Dat)

variable (m : (ℓ : Loc nD τ sig) → Buf (Elt Ideal) ℓ) (ρ : Dev nD → PrngReg)

/-! ## The index maps -/

/-- The body's one load and one store rectangle per buffer start at the origin. -/
theorem origin : (![0, 0, 0, 0] : Fin 4 → Nat) = fun _ => 0 := funext fun a => by fin_cases a <;> rfl

/-- All four windows move alike: at point `t` the block index is `(t / 16, t % 16, 0, 0)`. -/
theorem block_index : ∀ t : Fin cfg0.N,
    (win0_0.index t (0 : Fin 4) = t.val / 16 ∧ win0_0.index t (1 : Fin 4) = t.val % 16
      ∧ win0_0.index t (2 : Fin 4) = 0 ∧ win0_0.index t (3 : Fin 4) = 0)
    ∧ (win0_1.index t (0 : Fin 4) = t.val / 16 ∧ win0_1.index t (1 : Fin 4) = t.val % 16
      ∧ win0_1.index t (2 : Fin 4) = 0 ∧ win0_1.index t (3 : Fin 4) = 0)
    ∧ (win0_2.index t (0 : Fin 4) = t.val / 16 ∧ win0_2.index t (1 : Fin 4) = t.val % 16
      ∧ win0_2.index t (2 : Fin 4) = 0 ∧ win0_2.index t (3 : Fin 4) = 0)
    ∧ (win0_3.index t (0 : Fin 4) = t.val / 16 ∧ win0_3.index t (1 : Fin 4) = t.val % 16
      ∧ win0_3.index t (2 : Fin 4) = 0 ∧ win0_3.index t (3 : Fin 4) = 0) :=
  (by decide +kernel : ∀ t : Fin grid0.N, _)

/-- A grid point is below 64. -/
theorem point_lt (t : Fin cfg0.N) : t.val < 64 := Nat.lt_of_lt_of_eq t.isLt N_0

/-- The head a grid point works on. -/
abbrev batchOf (t : Fin cfg0.N) : Fin 4 := ⟨t.val / 16, by have := point_lt t; omega⟩
abbrev headIxOf (t : Fin cfg0.N) : Fin 16 := ⟨t.val % 16, by omega⟩

/-! ## The stored block, over any three input blocks -/

/-- An index of a [1, 1, 4096, 64] block is its row and its feature. -/
theorem block_idx (y : S1x1x4096x64.Idx) : y = ix4 (0 : Fin 1) (0 : Fin 1) (y 2) (y 3) := by
  funext a
  match a with
  | ⟨0, _⟩ => exact Fin.ext (by show (y 0).val = 0; have : (y 0).val < 1 := (y 0).isLt; omega)
  | ⟨1, _⟩ => exact Fin.ext (by show (y 1).val = 0; have : (y 1).val < 1 := (y 1).isLt; omega)
  | ⟨2, _⟩ => rfl
  | ⟨3, _⟩ => rfl

/-- The block the body stores, at any index, is the attention of the head its input blocks hold. -/
theorem stored_block (x0 x1 x2 : Vec Ideal S1x1x4096x64 .f32) (y : S1x1x4096x64.Idx) :
    k0_pay1 (k0_pay4 x0 x1 x2) (k0_pay5 x0 x1) y
      = attnOut (headOfBlock x0) (headOfBlock x1) (headOfBlock x2) (blockIx (y 2)) (posIx (y 2)) (y 3) :=
  (congrArg (k0_pay1 (k0_pay4 x0 x1 x2) (k0_pay5 x0 x1)) (block_idx y)).trans
    (Kern.payload_eq x0 x1 x2 (y 2) (y 3))

/-! ## The input blocks, read through their rectangles -/

/-- Head `(b, h)` of an array is what a [1, 1, 4096, 64] block holds when the block's rows are that head's. -/
theorem headOfBlock_eq (X : S4x16x4096x64.Idx → EReal) (x : S1x1x4096x64.Idx → EReal) (b : Fin 4) (h : Fin 16)
    (hx : ∀ (n : Fin 4096) (d : Fin 64), x (ix4 (0 : Fin 1) (0 : Fin 1) n d) = X (ix4 b h n d)) :
    headOfBlock x = headOf X b h :=
  funext fun g => funext fun s => funext fun d => hx (rowOf g s) d

/-- The first argument's block at point `t` is head `(t / 16, t % 16)` of the first argument. -/
theorem block0_apply (c : Dev nD) (t : Fin cfg0.N) (n : Fin 4096) (d : Fin 64) :
    (iblk m c 0 t : Vec Ideal S1x1x4096x64 .f32) (ix4 (0 : Fin 1) (0 : Fin 1) n d)
      = (m ((c : Thread nD τ).loc main_arg0) : S4x16x4096x64.Idx → Elt Ideal .f32) (ix4 (batchOf t) (headIxOf t) n d) := by
  obtain ⟨⟨e0, e1, e2, e3⟩, -, -, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * 0 = t.val / 16; omega
  | ⟨1, _⟩ => show win0_0.index t (1 : Fin 4) * 1 + 1 * 0 = t.val % 16; omega
  | ⟨2, _⟩ => show win0_0.index t (2 : Fin 4) * 4096 + 1 * n.val = n.val; omega
  | ⟨3, _⟩ => show win0_0.index t (3 : Fin 4) * 64 + 1 * d.val = d.val; omega

/-- The second argument's block at point `t` is head `(t / 16, t % 16)` of the second argument. -/
theorem block1_apply (c : Dev nD) (t : Fin cfg0.N) (n : Fin 4096) (d : Fin 64) :
    (iblk m c 1 t : Vec Ideal S1x1x4096x64 .f32) (ix4 (0 : Fin 1) (0 : Fin 1) n d)
      = (m ((c : Thread nD τ).loc main_arg1) : S4x16x4096x64.Idx → Elt Ideal .f32) (ix4 (batchOf t) (headIxOf t) n d) := by
  obtain ⟨-, ⟨e0, e1, e2, e3⟩, -, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * 0 = t.val / 16; omega
  | ⟨1, _⟩ => show win0_1.index t (1 : Fin 4) * 1 + 1 * 0 = t.val % 16; omega
  | ⟨2, _⟩ => show win0_1.index t (2 : Fin 4) * 4096 + 1 * n.val = n.val; omega
  | ⟨3, _⟩ => show win0_1.index t (3 : Fin 4) * 64 + 1 * d.val = d.val; omega

/-- The third argument's block at point `t` is head `(t / 16, t % 16)` of the third argument. -/
theorem block2_apply (c : Dev nD) (t : Fin cfg0.N) (n : Fin 4096) (d : Fin 64) :
    (iblk m c 2 t : Vec Ideal S1x1x4096x64 .f32) (ix4 (0 : Fin 1) (0 : Fin 1) n d)
      = (m ((c : Thread nD τ).loc main_arg2) : S4x16x4096x64.Idx → Elt Ideal .f32) (ix4 (batchOf t) (headIxOf t) n d) := by
  obtain ⟨-, -, ⟨e0, e1, e2, e3⟩, -⟩ := block_index t
  unfold iblk
  rw [View.read_apply]
  show V m c main_arg2 _ = m (c.tc.loc main_arg2) _
  unfold V
  congr 1
  funext a
  apply Fin.ext
  match a with
  | ⟨0, _⟩ => show win0_2.index t (0 : Fin 4) * 1 + 1 * 0 = t.val / 16; omega
  | ⟨1, _⟩ => show win0_2.index t (1 : Fin 4) * 1 + 1 * 0 = t.val % 16; omega
  | ⟨2, _⟩ => show win0_2.index t (2 : Fin 4) * 4096 + 1 * n.val = n.val; omega
  | ⟨3, _⟩ => show win0_2.index t (3 : Fin 4) * 64 + 1 * d.val = d.val; omega

/-! ## What a point writes back -/

/-- The result array: the two-level attention of the three argument arrays as launched. -/
abbrev result (c : Dev nD) : S4x16x4096x64.Idx → EReal :=
  attnArray (m ((c : Thread nD τ).loc main_arg0)) (m ((c : Thread nD τ).loc main_arg1)) (m ((c : Thread nD τ).loc main_arg2))

/-- An index of the result window's block at point `t` sits in the array at head `(t / 16, t % 16)`, same row, same feature. -/
theorem result_block_emb (t : Fin cfg0.N) (y : S1x1x4096x64.Idx) :
    ((cfg0.win 3).blk t).view.emb y = ix4 (batchOf t) (headIxOf t) (y 2) (y 3) := by
  obtain ⟨-, -, -, ⟨e0, e1, e2, e3⟩⟩ := block_index t
  funext a
  apply Fin.ext
  match a with
  | ⟨0, _⟩ => show win0_3.index t (0 : Fin 4) * 1 + 1 * (y 0).val = t.val / 16; have : (y 0).val < 1 := (y 0).isLt; omega
  | ⟨1, _⟩ => show win0_3.index t (1 : Fin 4) * 1 + 1 * (y 1).val = t.val % 16; have : (y 1).val < 1 := (y 1).isLt; omega
  | ⟨2, _⟩ => show win0_3.index t (2 : Fin 4) * 4096 + 1 * (y 2).val = (y 2).val; omega
  | ⟨3, _⟩ => show win0_3.index t (3 : Fin 4) * 64 + 1 * (y 3).val = (y 3).val; omega

/-- What point `t` writes back is the block at `t` of the attention of the argument arrays. -/
theorem flushed_eq (c : Dev nD) (t : Fin cfg0.N) :
    (dats m 0 c).flushed 3 t = ((cfg0.win 3).blk t).view.read (Elt Ideal) (result m c) := by
  rw [Value.flushed3]
  unfold out0_3
  rw [View.canon_unit_zero origin]
  simp only [View.ld_unit_zero (S := S1x1x4096x64) origin]
  funext y
  show k0_pay1 (k0_pay4 (iblk m c 0 t) (iblk m c 1 t) (iblk m c 2 t)) (k0_pay5 (iblk m c 0 t) (iblk m c 1 t)) y
    = result m c (((cfg0.win 3).blk t).view.emb y)
  refine (stored_block (iblk m c 0 t) (iblk m c 1 t) (iblk m c 2 t) y).trans ?_
  rw [result_block_emb t y,
    headOfBlock_eq (m ((c : Thread nD τ).loc main_arg0)) (iblk m c 0 t) (batchOf t) (headIxOf t) (block0_apply m c t),
    headOfBlock_eq (m ((c : Thread nD τ).loc main_arg1)) (iblk m c 1 t) (batchOf t) (headIxOf t) (block1_apply m c t),
    headOfBlock_eq (m ((c : Thread nD τ).loc main_arg2)) (iblk m c 2 t) (batchOf t) (headIxOf t) (block2_apply m c t)]
  rfl

/-! ## The blocks fill the array -/

/-- An index of the array is in point `t`'s block iff each coordinate is in the block's range on its axis. -/
theorem mem_block (t : Fin cfg0.N) (i : S4x16x4096x64.Idx) :
    i ∈ ((cfg0.win 3).blk t).view.set ↔ ∀ a : Fin 4, win0_3.index t a * S1x1x4096x64.size a ≤ (i a).val
      ∧ (i a).val < win0_3.index t a * S1x1x4096x64.size a + S1x1x4096x64.size a := by
  show i ∈ ((View.whole main_v0).slice (win0_3.rect t)).set ↔ _
  rw [View.set_slice_whole, Rect.mem_set_unit]
  exact Iff.rfl

/-- Every index `(b, h, n, d)` of the array lies in the block of point `b * 16 + h`, which writes back. -/
theorem covered (i : S4x16x4096x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 4096 := (i 2).isLt
  have h3 : (i 3).val < 64 := (i 3).isLt
  obtain ⟨t, ht⟩ : ∃ t : Fin cfg0.N, t.val = (i 0).val * 16 + (i 1).val :=
    ⟨⟨(i 0).val * 16 + (i 1).val, Nat.lt_of_lt_of_eq (by omega : (i 0).val * 16 + (i 1).val < 64) N_0.symm⟩, rfl⟩
  obtain ⟨-, -, -, ⟨e0, e1, e2, e3⟩⟩ := block_index t
  refine ⟨t, flush0_3 t, ?_⟩
  rw [mem_block]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 64 ≤ (i 3).val ∧ (i 3).val < win0_3.index t (3 : Fin 4) * 64 + 64; omega

/-- So the result array after the run is the attention of the argument arrays. -/
theorem final (c : Dev nD) : (dats m 0 c).arrAt 3 cfg0.N = result m c :=
  (dats m 0 c).arrAt_eq_of_cover 3 (result m c) (fun t _ => flushed_eq m c t) covered

/-! ## The run -/

/-- Every run of the kernel's program terminates with the result array at the two-level attention of the argument
    arrays as launched, and the three arguments unchanged. -/
theorem kernel_run : θ_run defs (onTc (τ := τ) (main (F := Ideal))) ⟨m, fun _ => 0, ρ⟩ fun r => ∀ c : Dev nD,
      r.2.mem ((c : Thread nD τ).loc main_v0)
        = attnArray (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.TwoLevelAttn.Arr

end
-- ==== Proof.lean ====
/-
  Two-level attention: the kernel and its reference compute one function of their arguments.

  Queries, keys and values have shape [4, 16, 4096, 64]. The 4096 rows of a head are 64 blocks of 64 consecutive rows.
  Inside a block, every row attends to the rows of its own block: scores are inner products of the query row scaled
  by 1/8 with the key rows, turned into weights by a softmax, and the weights average the block's value rows. Between
  blocks, every block attends to all 64 blocks: scores are inner products of whole blocks (the queries scaled by
  1/64), a softmax over the blocks gives weights, and the weights average the blocks' local results position by
  position. The softmax subtracts the larger of -∞ and the row's supremum before the exponential. Read on the
  extended reals, the kernel's result array is this function of its three argument arrays, and so is the
  reference's; from arguments that agree the two results are equal element by element, and every run leaves the
  arguments unchanged.
-/
import proofs.«140023_j34325378629691_2_alg».proof.Defs
import proofs.«140023_j34325378629691_2_alg».proof.Proof.Gen.Kernel
import proofs.«140023_j34325378629691_2_alg».proof.Proof.Gen.Kernel.Skeleton
import proofs.«140023_j34325378629691_2_alg».proof.Proof.Gen.Kernel.Launch
import proofs.«140023_j34325378629691_2_alg».proof.Proof.Gen.Kernel.Points
import proofs.«140023_j34325378629691_2_alg».proof.Proof.Gen.Kernel.Frame
import proofs.«140023_j34325378629691_2_alg».proof.Proof.Gen.KernelIdeal
import proofs.«140023_j34325378629691_2_alg».proof.Proof.Gen.KernelIdeal.Skeleton
import proofs.«140023_j34325378629691_2_alg».proof.Proof.Gen.KernelIdeal.Launch
import proofs.«140023_j34325378629691_2_alg».proof.Proof.Gen.KernelIdeal.Points
import proofs.«140023_j34325378629691_2_alg».proof.Proof.Gen.KernelIdeal.Frame
import proofs.«140023_j34325378629691_2_alg».proof.Proof.Gen.ReferenceIdeal
import proofs.«140023_j34325378629691_2_alg».proof.Proof.Gen.Pre_finite_inputs
import proofs.«140023_j34325378629691_2_alg».proof.Proof.Gen.KernelIdeal.Value
import proofs.«140023_j34325378629691_2_alg».proof.Proof.Gen.ReferenceIdeal.Run
import proofs.«140023_j34325378629691_2_alg».proof.Proof.Gen.ReferenceIdeal.Read
import proofs.«140023_j34325378629691_2_alg».proof.Proof.RefValue
import proofs.«140023_j34325378629691_2_alg».proof.Proof.KernelArray
import Idealize.ShloMosaic.Adequacy
import Idealize.ShloMosaic.Init

noncomputable section

namespace Cert.Proof

open Idealize.ShloMosaic Idealize.SL.Sem Cert.TwoLevelAttn

/-- The kernel's program runs and leaves its arguments unchanged. -/
theorem frame_kernel : Cert.frame_Kernel := fun m ρ _ => Cert.Kernel.Gen.frame m ρ

/-- So does the kernel's program read on the extended reals. -/
theorem frame_kernel_ideal : Cert.frame_KernelIdeal := fun m ρ _ => Cert.KernelIdeal.Gen.frame m ρ

/-- So does the reference. -/
theorem frame_reference_ideal : Cert.frame_ReferenceIdeal := fun m ρ _ =>
  (θ_run Cert.ReferenceIdeal.defs _ _).mono (fun _ h c => (h c).2) (Cert.ReferenceIdeal.Value.run (F := Ideal) m ρ)

/-- On the extended reals both results are the two-level attention of the arguments, head by head: the kernel's array
    block by block, the reference's index by index. -/
theorem algebraic : Cert.algebraic_KernelIdeal_ReferenceIdeal := by
  intro m ρ m' ρ' _ hagree
  refine ⟨fun c => attnArray
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.TwoLevelAttn.Arr.kernel_run m ρ, ?_⟩
  exact (θ_run Cert.ReferenceIdeal.defs _ _).mono
    (fun _ h c => ⟨by
        rw [(h c).1, Cert.ReferenceIdeal.Read.val_main_v36_eq, Cert.TwoLevelAttn.Ref.reference_eq,
          (hagree c).1, (hagree c).2.1, (hagree c).2.2],
      (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
